-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x512x512 : Shape := ⟨4, ![32, 3, 512, 512]⟩
abbrev S_ : Shape := ⟨0, ![]⟩

class Facts : Prop where
  bcast_S_S32x3x512x512 : S_.BroadcastsInDim S32x3x512x512 (![] : Fin 0 → Fin S32x3x512x512.rank)
  reducesTo_S32x3x512x512_S_d0_1_2_3 : S32x3x512x512.ReducesTo [0, 1, 2, 3] S_
  h_S_ : 0 < S_.numel

variable [Facts]

def fn {F : FTy → Type} [FloatOps F] (main_arg0 : FVec F S32x3x512x512 .f32) (main_arg1 : FVec F S32x3x512x512 .f32) : IVec S_ 1 :=
  let main_v0 : FVec F S32x3x512x512 .f32 := Host.absf main_arg0
  let main_cst : FVec F S_ .f32 := constant S_ .f32 0x7F800000#32
  let main_v1 : FVec F S32x3x512x512 .f32 := broadcastInDim S32x3x512x512 ![] bcast_S_S32x3x512x512 main_cst
  let main_v2 : IVec S32x3x512x512 1 := cmpf .olt main_v0 main_v1
  let main_c : IVec S_ 1 := constantI S_ 1 1#1
  let main_v3 : IVec S_ 1 := (fun x v => Host.reduce IntOp.andi x v reducesTo_S32x3x512x512_S_d0_1_2_3 h_S_) main_v2 main_c
  let main_v4 : FVec F S32x3x512x512 .f32 := Host.absf main_arg1
  let main_cst_0 : FVec F S_ .f32 := constant S_ .f32 0x7F800000#32
  let main_v5 : FVec F S32x3x512x512 .f32 := broadcastInDim S32x3x512x512 ![] bcast_S_S32x3x512x512 main_cst_0
  let main_v6 : IVec S32x3x512x512 1 := cmpf .olt main_v4 main_v5
  let main_c_1 : IVec S_ 1 := constantI S_ 1 1#1
  let main_v7 : IVec S_ 1 := (fun x v => Host.reduce IntOp.andi x v reducesTo_S32x3x512x512_S_d0_1_2_3 h_S_) main_v6 main_c_1
  let main_v8 : IVec S_ 1 := andi main_v3 main_v7
  main_v8
-- ==== Kernel.lean ====
abbrev S32x3x512x512 : Shape := ⟨4, ![32, 3, 512, 512]⟩
abbrev S32x3 : Shape := ⟨2, ![32, 3]⟩
abbrev S8x3x128x512 : Shape := ⟨4, ![8, 3, 128, 512]⟩
abbrev S8x3 : Shape := ⟨2, ![8, 3]⟩
abbrev S8x3x512 : Shape := ⟨3, ![8, 3, 512]⟩
abbrev S_ : Shape := ⟨0, ![]⟩

abbrev nBuf : Space → Nat
  | .hbm => 26
  | .vmem => 10
  | .smem => 0
  | _ => 0

abbrev bufTy : (tb : Table) → Fin (tcTables nBuf tb) → BufTy
  | .hbm, ⟨0, _⟩ => ⟨S32x3x512x512, .f32⟩
  | .hbm, ⟨1, _⟩ => ⟨S32x3x512x512, .f32⟩
  | .hbm, ⟨2, _⟩ => ⟨S32x3, .f32⟩
  | .hbm, ⟨3, _⟩ => ⟨S32x3, .f32⟩
  | .hbm, ⟨4, _⟩ => ⟨S32x3, .f32⟩
  | .hbm, ⟨5, _⟩ => ⟨S32x3, .f32⟩
  | .hbm, ⟨6, _⟩ => ⟨S32x3, .f32⟩
  | .hbm, ⟨7, _⟩ => ⟨S_, .f32⟩
  | .hbm, ⟨8, _⟩ => ⟨S32x3, .f32⟩
  | .hbm, ⟨9, _⟩ => ⟨S32x3, .i1⟩
  | .hbm, ⟨10, _⟩ => ⟨S_, .f32⟩
  | .hbm, ⟨11, _⟩ => ⟨S_, .f32⟩
  | .hbm, ⟨12, _⟩ => ⟨S32x3, .f32⟩
  | .hbm, ⟨13, _⟩ => ⟨S32x3, .f32⟩
  | .hbm, ⟨14, _⟩ => ⟨S_, .f32⟩
  | .hbm, ⟨15, _⟩ => ⟨S32x3, .f32⟩
  | .hbm, ⟨16, _⟩ => ⟨S32x3, .i1⟩
  | .hbm, ⟨17, _⟩ => ⟨S32x3, .f32⟩
  | .hbm, ⟨18, _⟩ => ⟨S_, .f32⟩
  | .hbm, ⟨19, _⟩ => ⟨S_, .f32⟩
  | .hbm, ⟨20, _⟩ => ⟨S32x3, .f32⟩
  | .hbm, ⟨21, _⟩ => ⟨S32x3, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S8x3x128x512, .f32⟩
  | .local _ .vmem, ⟨1, _⟩ => ⟨S8x3x128x512, .f32⟩
  | .local _ .vmem, ⟨2, _⟩ => ⟨S8x3x128x512, .f32⟩
  | .local _ .vmem, ⟨3, _⟩ => ⟨S8x3x128x512, .f32⟩
  | .local _ .vmem, ⟨4, _⟩ => ⟨S8x3, .f32⟩
  | .local _ .vmem, ⟨5, _⟩ => ⟨S8x3, .f32⟩
  | .local _ .vmem, ⟨6, _⟩ => ⟨S8x3, .f32⟩
  | .local _ .vmem, ⟨7, _⟩ => ⟨S8x3, .f32⟩
  | .local _ .vmem, ⟨8, _⟩ => ⟨S8x3, .f32⟩
  | .local _ .vmem, ⟨9, _⟩ => ⟨S8x3, .f32⟩
  | _, _ => ⟨S32x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_call1_v0 : Ref sig .tc := ⟨.hbm, 19, rfl⟩
abbrev main_call1_v1 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_cst_4 : Ref sig .tc := ⟨.hbm, 24, rfl⟩
abbrev main_v11 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x3x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x3x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S8x3_S8x3_0_0 : ∀ a, (![0, 0] : Fin 2 → Nat) a + S8x3.size a ≤ S8x3.size a
  h_S8x3 : 0 < S8x3.numel
  inb_S8x3x128x512_S8x3x128x512_0_0_0_0 : ∀ a, (![0, 0, 0, 0] : Fin 4 → Nat) a + S8x3x128x512.size a ≤ S8x3x128x512.size a
  h_S8x3x128x512 : 0 < S8x3x128x512.numel
  natLt_1_32 : 1 < 32
  reduces_S8x3x128x512_S8x3x512 : S8x3x128x512.Reduces [2] S8x3x512
  reduces_S8x3x512_S8x3 : S8x3x512.Reduces [2] S8x3
  shapeCasts_S8x3_S8x3 : S8x3.ShapeCasts S8x3
  bcast_S_S32x3 : S_.BroadcastsInDim S32x3 (![] : Fin 0 → Fin S32x3.rank)
  reducesTo_S32x3_S_d0_1 : S32x3.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x3x128x512.size a ≤ S32x3x512x512.size a
  hwx0_0 : ∀ i : grid0.Coords, EltTy.bits .f32 = 32 ∨ (Rect.block (s := S32x3x512x512) S8x3x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x3x128x512.size a ≤ S32x3x512x512.size a
  hwx0_1 : ∀ i : grid0.Coords, EltTy.bits .f32 = 32 ∨ (Rect.block (s := S32x3x512x512) S8x3x128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x3.size a ≤ S32x3.size a
  hwx0_2 : ∀ i : grid0.Coords, EltTy.bits .f32 = 32 ∨ (Rect.block (s := S32x3) S8x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x3.size a ≤ S32x3.size a
  hwx0_3 : ∀ i : grid0.Coords, EltTy.bits .f32 = 32 ∨ (Rect.block (s := S32x3) S8x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x3.size a ≤ S32x3.size a
  hwx0_4 : ∀ i : grid0.Coords, EltTy.bits .f32 = 32 ∨ (Rect.block (s := S32x3) S8x3.size (cc0_transform_4 i) (hinb0_4 i)).WholeWords (EltTy.packing .f32)

variable [Facts₀]

abbrev win0_0 : Pipeline.Window sig grid0 :=
  Pipeline.Window.ofSpec (Memref.whole main_arg0) S8x3x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x3x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S8x3.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S8x3.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S8x3.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x3x512x512 : Shape := ⟨4, ![32, 3, 512, 512]⟩
abbrev S_ : Shape := ⟨0, ![]⟩
abbrev S32x3 : Shape := ⟨2, ![32, 3]⟩

abbrev nBuf : Space → Nat
  | .hbm => 38
  | .vmem => 0
  | .smem => 0
  | _ => 0

abbrev bufTy : (tb : Table) → Fin (tcTables nBuf tb) → BufTy
  | .hbm, ⟨0, _⟩ => ⟨S32x3x512x512, .f32⟩
  | .hbm, ⟨1, _⟩ => ⟨S32x3x512x512, .f32⟩
  | .hbm, ⟨2, _⟩ => ⟨S_, .f32⟩
  | .hbm, ⟨3, _⟩ => ⟨S32x3x512x512, .f32⟩
  | .hbm, ⟨4, _⟩ => ⟨S32x3x512x512, .i1⟩
  | .hbm, ⟨5, _⟩ => ⟨S32x3x512x512, .f32⟩
  | .hbm, ⟨6, _⟩ => ⟨S_, .f32⟩
  | .hbm, ⟨7, _⟩ => ⟨S32x3x512x512, .f32⟩
  | .hbm, ⟨8, _⟩ => ⟨S32x3x512x512, .i1⟩
  | .hbm, ⟨9, _⟩ => ⟨S32x3x512x512, .f32⟩
  | .hbm, ⟨10, _⟩ => ⟨S32x3x512x512, .f32⟩
  | .hbm, ⟨11, _⟩ => ⟨S_, .f32⟩
  | .hbm, ⟨12, _⟩ => ⟨S32x3, .f32⟩
  | .hbm, ⟨13, _⟩ => ⟨S_, .f32⟩
  | .hbm, ⟨14, _⟩ => ⟨S32x3, .f32⟩
  | .hbm, ⟨15, _⟩ => ⟨S_, .f32⟩
  | .hbm, ⟨16, _⟩ => ⟨S32x3, .f32⟩
  | .hbm, ⟨17, _⟩ => ⟨S32x3, .f32⟩
  | .hbm, ⟨18, _⟩ => ⟨S32x3, .f32⟩
  | .hbm, ⟨19, _⟩ => ⟨S_, .f32⟩
  | .hbm, ⟨20, _⟩ => ⟨S32x3, .f32⟩
  | .hbm, ⟨21, _⟩ => ⟨S32x3, .i1⟩
  | .hbm, ⟨22, _⟩ => ⟨S_, .f32⟩
  | .hbm, ⟨23, _⟩ => ⟨S32x3, .f32⟩
  | .hbm, ⟨24, _⟩ => ⟨S32x3, .i1⟩
  | .hbm, ⟨25, _⟩ => ⟨S_, .f32⟩
  | .hbm, ⟨26, _⟩ => ⟨S_, .f32⟩
  | .hbm, ⟨27, _⟩ => ⟨S32x3, .f32⟩
  | .hbm, ⟨28, _⟩ => ⟨S32x3, .f32⟩
  | .hbm, ⟨29, _⟩ => ⟨S32x3, .f32⟩
  | .hbm, ⟨30, _⟩ => ⟨S_, .f32⟩
  | .hbm, ⟨31, _⟩ => ⟨S_, .f32⟩
  | .hbm, ⟨32, _⟩ => ⟨S32x3, .f32⟩
  | .hbm, ⟨33, _⟩ => ⟨S32x3, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_v13 : Ref sig .tc := ⟨.hbm, 21, rfl⟩
abbrev main_cst_5 : Ref sig .tc := ⟨.hbm, 22, rfl⟩
abbrev main_v14 : Ref sig .tc := ⟨.hbm, 23, rfl⟩
abbrev main_v15 : Ref sig .tc := ⟨.hbm, 24, rfl⟩
abbrev main_cst_6 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_v17 : Ref sig .tc := ⟨.hbm, 29, rfl⟩
abbrev main_cst_7 : Ref sig .tc := ⟨.hbm, 30, rfl⟩
abbrev main_call1_v0 : Ref sig .tc := ⟨.hbm, 31, rfl⟩
abbrev main_call1_v1 : Ref sig .tc := ⟨.hbm, 32, rfl⟩
abbrev main_v18 : Ref sig .tc := ⟨.hbm, 33, rfl⟩
abbrev main_cst_8 : Ref sig .tc := ⟨.hbm, 34, rfl⟩
abbrev main_v19 : Ref sig .tc := ⟨.hbm, 35, rfl⟩
abbrev main_cst_9 : Ref sig .tc := ⟨.hbm, 36, rfl⟩
abbrev main_v20 : Ref sig .tc := ⟨.hbm, 37, rfl⟩

abbrev nD : Nat := 1
abbrev τ : Topo := Topo.v7x

variable {F : FTy → Type} [FloatOps F]

class Facts₀ : Prop where
  bcast_S_S32x3x512x512 : S_.BroadcastsInDim S32x3x512x512 (![] : Fin 0 → Fin S32x3x512x512.rank)
  reducesTo_S32x3x512x512_S32x3_d2_3 : S32x3x512x512.ReducesTo [2, 3] S32x3
  h_S_ : 0 < S_.numel
  bcast_S_S32x3 : S_.BroadcastsInDim S32x3 (![] : Fin 0 → Fin S32x3.rank)
  reducesTo_S32x3_S_d0_1 : S32x3.ReducesTo [0, 1] S_

variable [Facts₀]

class Facts : Prop extends Facts₀ where

variable [Facts]
-- ==== Proof.CasePieces.lean ====
/-
  What one grid point leaves in the three accumulators.

  The body keeps three [8, 3] accumulators — the count of positions where both thresholded inputs are on, the count
  where the first is, the count where the second is — resident across the four row-tiles of a batch tile.  On the
  first row-tile it stores zeros into each, reads them back and adds the tile's counts; on the other three it reads
  what the point before left and adds the tile's counts.  Each accumulator therefore ends a point at one covering
  store whose value is the tile's count added to what it read: the lemmas below say exactly that, for any float
  instance, with the tile's counts left as the body's own arithmetic terms.
-/
import proofs.«174937_j25640954757369_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Counts

open Cert.KernelIdeal Cert.KernelIdeal.Gen

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-- Away from the first row-tile of a batch tile (the accumulators are live): output 2 ends at what it held plus the tile's count of positions where both inputs reach the threshold. -/
theorem piece_B_2 (c : Dev nD) (i : grid0.Coords) (a2 : Memref sig .tc .vmem S8x3x128x512 .f32) (h2 : a2.IsWhole) (a3 : Memref sig .tc .vmem S8x3x128x512 .f32) (h3 : a3.IsWhole) (a4 : Memref sig .tc .vmem S8x3 .f32) (h4 : a4.IsWhole) (a5 : Memref sig .tc .vmem S8x3 .f32) (h5 : a5.IsWhole) (a6 : Memref sig .tc .vmem S8x3 .f32) (h6 : a6.IsWhole) (hc : ¬cond0_0 i) (x0 x1 : Vec F S8x3x128x512 .f32) (xo2 xo3 xo4 : Vec F S8x3 .f32) :
    out0_B_2 c i a2 h2 a3 h3 a4 h4 a5 h5 a6 h6 hc x0 x1 xo2 xo3 xo4 = k0_pay8 x0 x1 xo2 := by
  unfold out0_B_2
  rw [View.read_writes_eq_canon _ _ _ (cover0_B_2 c i a2 h2 a3 h3 a4 h4 a5 h5 a6 h6 hc x0 x1 xo2 xo3 xo4)]
  unfold kernelRun0_B
  dsimp only
  try sl_unfold_words
  rw [View.canon_unit_zero hz2]
  simp only [View.readAt_eq_ld, h2.read_unread, h3.read_unread, h4.read_unread, h5.read_unread, h6.read_unread,
    View.ld_unit_zero (S := S8x3x128x512) hz4, View.ld_unit_zero (S := S8x3) hz2]

/-- Away from the first row-tile of a batch tile (the accumulators are live): output 3 ends at what it held plus the tile's count of positions where the first input reaches the threshold. -/
theorem piece_B_3 (c : Dev nD) (i : grid0.Coords) (a2 : Memref sig .tc .vmem S8x3x128x512 .f32) (h2 : a2.IsWhole) (a3 : Memref sig .tc .vmem S8x3x128x512 .f32) (h3 : a3.IsWhole) (a4 : Memref sig .tc .vmem S8x3 .f32) (h4 : a4.IsWhole) (a5 : Memref sig .tc .vmem S8x3 .f32) (h5 : a5.IsWhole) (a6 : Memref sig .tc .vmem S8x3 .f32) (h6 : a6.IsWhole) (hc : ¬cond0_0 i) (x0 x1 : Vec F S8x3x128x512 .f32) (xo2 xo3 xo4 : Vec F S8x3 .f32) :
    out0_B_3 c i a2 h2 a3 h3 a4 h4 a5 h5 a6 h6 hc x0 x1 xo2 xo3 xo4 = k0_pay9 x0 xo3 := by
  unfold out0_B_3
  rw [View.read_writes_eq_canon _ _ _ (cover0_B_3 c i a2 h2 a3 h3 a4 h4 a5 h5 a6 h6 hc x0 x1 xo2 xo3 xo4)]
  unfold kernelRun0_B
  dsimp only
  try sl_unfold_words
  rw [View.canon_unit_zero hz2]
  simp only [View.readAt_eq_ld, h2.read_unread, h3.read_unread, h4.read_unread, h5.read_unread, h6.read_unread,
    View.ld_unit_zero (S := S8x3x128x512) hz4, View.ld_unit_zero (S := S8x3) hz2]

/-- Away from the first row-tile of a batch tile (the accumulators are live): output 4 ends at what it held plus the tile's count of positions where the second input reaches the threshold. -/
theorem piece_B_4 (c : Dev nD) (i : grid0.Coords) (a2 : Memref sig .tc .vmem S8x3x128x512 .f32) (h2 : a2.IsWhole) (a3 : Memref sig .tc .vmem S8x3x128x512 .f32) (h3 : a3.IsWhole) (a4 : Memref sig .tc .vmem S8x3 .f32) (h4 : a4.IsWhole) (a5 : Memref sig .tc .vmem S8x3 .f32) (h5 : a5.IsWhole) (a6 : Memref sig .tc .vmem S8x3 .f32) (h6 : a6.IsWhole) (hc : ¬cond0_0 i) (x0 x1 : Vec F S8x3x128x512 .f32) (xo2 xo3 xo4 : Vec F S8x3 .f32) :
    out0_B_4 c i a2 h2 a3 h3 a4 h4 a5 h5 a6 h6 hc x0 x1 xo2 xo3 xo4 = k0_pay1 (k0_pay7 x1) xo4 := by
  unfold out0_B_4
  rw [View.read_writes_eq_canon _ _ _ (cover0_B_4 c i a2 h2 a3 h3 a4 h4 a5 h5 a6 h6 hc x0 x1 xo2 xo3 xo4)]
  unfold kernelRun0_B
  dsimp only
  try sl_unfold_words
  rw [View.canon_unit_zero hz2]
  simp only [View.readAt_eq_ld, h2.read_unread, h3.read_unread, h4.read_unread, h5.read_unread, h6.read_unread,
    View.ld_unit_zero (S := S8x3x128x512) hz4, View.ld_unit_zero (S := S8x3) hz2]

/-- On the first row-tile of a batch tile the accumulators are zeroed first, then read back: output 2 ends at zero plus the tile's count of positions where both inputs reach the threshold. -/
theorem piece_A_2 (c : Dev nD) (i : grid0.Coords) (a2 : Memref sig .tc .vmem S8x3x128x512 .f32) (h2 : a2.IsWhole) (a3 : Memref sig .tc .vmem S8x3x128x512 .f32) (h3 : a3.IsWhole) (a4 : Memref sig .tc .vmem S8x3 .f32) (h4 : a4.IsWhole) (a5 : Memref sig .tc .vmem S8x3 .f32) (h5 : a5.IsWhole) (a6 : Memref sig .tc .vmem S8x3 .f32) (h6 : a6.IsWhole) (hc : cond0_0 i) (x0 x1 : Vec F S8x3x128x512 .f32) :
    out0_A_2 c i a2 h2 a3 h3 a4 h4 a5 h5 a6 h6 hc x0 x1 = k0_pay8 x0 x1 (k0_pay2 (F := F)) := by
  unfold out0_A_2
  rw [View.read_writes_eq_canon _ _ _ (cover0_A_2 c i a2 h2 a3 h3 a4 h4 a5 h5 a6 h6 hc x0 x1)]
  unfold kernelRun0_A
  dsimp only
  sl_unfold_words
  rw [View.canon_cons_unit_zero (S := S8x3) hz2, View.readCov_unit_zero (S := S8x3) _ hz2]
  simp only [View.readAt_eq_ld, h2.read_unread, h3.read_unread, View.ld_unit_zero (S := S8x3x128x512) hz4]

/-- On the first row-tile of a batch tile the accumulators are zeroed first, then read back: output 3 ends at zero plus the tile's count of positions where the first input reaches the threshold. -/
theorem piece_A_3 (c : Dev nD) (i : grid0.Coords) (a2 : Memref sig .tc .vmem S8x3x128x512 .f32) (h2 : a2.IsWhole) (a3 : Memref sig .tc .vmem S8x3x128x512 .f32) (h3 : a3.IsWhole) (a4 : Memref sig .tc .vmem S8x3 .f32) (h4 : a4.IsWhole) (a5 : Memref sig .tc .vmem S8x3 .f32) (h5 : a5.IsWhole) (a6 : Memref sig .tc .vmem S8x3 .f32) (h6 : a6.IsWhole) (hc : cond0_0 i) (x0 x1 : Vec F S8x3x128x512 .f32) :
    out0_A_3 c i a2 h2 a3 h3 a4 h4 a5 h5 a6 h6 hc x0 x1 = k0_pay9 x0 (k0_pay3 (F := F)) := by
  unfold out0_A_3
  rw [View.read_writes_eq_canon _ _ _ (cover0_A_3 c i a2 h2 a3 h3 a4 h4 a5 h5 a6 h6 hc x0 x1)]
  unfold kernelRun0_A
  dsimp only
  sl_unfold_words
  rw [View.canon_cons_unit_zero (S := S8x3) hz2, View.readCov_unit_zero (S := S8x3) _ hz2]
  simp only [View.readAt_eq_ld, h2.read_unread, h3.read_unread, View.ld_unit_zero (S := S8x3x128x512) hz4]

/-- On the first row-tile of a batch tile the accumulators are zeroed first, then read back: output 4 ends at zero plus the tile's count of positions where the second input reaches the threshold. -/
theorem piece_A_4 (c : Dev nD) (i : grid0.Coords) (a2 : Memref sig .tc .vmem S8x3x128x512 .f32) (h2 : a2.IsWhole) (a3 : Memref sig .tc .vmem S8x3x128x512 .f32) (h3 : a3.IsWhole) (a4 : Memref sig .tc .vmem S8x3 .f32) (h4 : a4.IsWhole) (a5 : Memref sig .tc .vmem S8x3 .f32) (h5 : a5.IsWhole) (a6 : Memref sig .tc .vmem S8x3 .f32) (h6 : a6.IsWhole) (hc : cond0_0 i) (x0 x1 : Vec F S8x3x128x512 .f32) :
    out0_A_4 c i a2 h2 a3 h3 a4 h4 a5 h5 a6 h6 hc x0 x1 = k0_pay1 (k0_pay7 x1) (k0_pay4 (F := F)) := by
  unfold out0_A_4
  rw [View.read_writes_eq_canon _ _ _ (cover0_A_4 c i a2 h2 a3 h3 a4 h4 a5 h5 a6 h6 hc x0 x1)]
  unfold kernelRun0_A
  dsimp only
  sl_unfold_words
  rw [View.canon_cons_unit_zero (S := S8x3) hz2, View.readCov_unit_zero (S := S8x3) _ hz2]
  simp only [View.readAt_eq_ld, h2.read_unread, h3.read_unread, View.ld_unit_zero (S := S8x3x128x512) hz4]

end Cert.KernelIdeal.Counts

end
-- ==== Proof.CountsSpec.lean ====
/-
  The result as one function of the two argument arrays, over the extended reals.

  For arrays `x`, `y` of shape [32, 3, 512, 512] write `[v]` for 1 when `v ≥ 1/2` and 0 otherwise.  For each batch
  `p` and channel `q` three counts are taken over the 512 × 512 positions:

      both  (p, q) = Σ_H Σ_W [x(p,q,H,W)] · [y(p,q,H,W)]
      first (p, q) = Σ_H Σ_W [x(p,q,H,W)]
      second(p, q) = Σ_H Σ_W [y(p,q,H,W)]

  and the result is the mean over the 96 pairs `(p, q)` of `both / union` where `union = first + second − both` is
  positive, and of 1 where it is not.  The mean and the guarded quotient (`meanRatio`) are one function of the three
  count arrays; it is never opened: both programs end with it, applied to their own spelling of the counts.
-/
import Idealize.ShloMosaic.PureOps.Ideal.Laws
import Idealize.ShloMosaic.Lib.ValueIdx
import Idealize.ShloMosaic.Lib.IdealHost

noncomputable section

namespace Cert.ThresholdCounts

open Idealize.ShloMosaic Idealize.ShloMosaic.ValueIdx

/-- The argument arrays' shape, the counts' shape, and the scalar's. -/
abbrev Arr : Shape := ⟨4, ![32, 3, 512, 512]⟩
abbrev Cnt : Shape := ⟨2, ![32, 3]⟩
abbrev Sc : Shape := ⟨0, ![]⟩

/-- `[v]`: 1 if `v` reaches the threshold one half, else 0 — the comparison's one-bit word read as a number. -/
def reaches (v : EReal) : EReal :=
  FloatOps.uitofp (F := Ideal) .f32 (FloatOps.cmpf (F := Ideal) (φ := .f32) .oge v (Ideal.ofBits .f32 0x3F000000#32))

/-- The sum of `f` over the 512 × 512 positions of batch `j 0`, channel `j 1`. -/
def overPositions (f : Arr.Idx → EReal) (j : Cnt.Idx) : EReal :=
  ∑ H : Fin 512, ∑ W : Fin 512, f (ix4 (j 0) (j 1) H W)

/-- Positions where both arrays reach the threshold; where the first does; where the second does. -/
def both (x y : Arr.Idx → EReal) : Cnt.Idx → EReal := overPositions fun i => reaches (x i) * reaches (y i)
def first (x : Arr.Idx → EReal) : Cnt.Idx → EReal := overPositions fun i => reaches (x i)
def second (y : Arr.Idx → EReal) : Cnt.Idx → EReal := overPositions fun i => reaches (y i)

/-- The mean, over the 96 (batch, channel) pairs, of `inter / union` where `union = sa + sb − inter > 0` and of 1
    elsewhere — as both programs' closing host operations spell it. -/
def meanRatio (hb : Sc.BroadcastsInDim Cnt ![]) (hr : Cnt.ReducesTo [0, 1] Sc) (h0 : 0 < Sc.numel)
    (inter sa sb : FVec Ideal Cnt .f32) : FVec Ideal Sc .f32 :=
  Host.divf (F := Ideal)
    (Host.reduceAdd (F := Ideal)
      (select (cmpf (F := Ideal) .ogt (subf (F := Ideal) (addf (F := Ideal) sa sb) inter)
                (broadcastInDim Cnt ![] hb (constant (F := Ideal) Sc .f32 0x00000000#32)))
        (Host.divf (F := Ideal) inter
          (select (cmpf (F := Ideal) .ogt (subf (F := Ideal) (addf (F := Ideal) sa sb) inter)
                    (broadcastInDim Cnt ![] hb (constant (F := Ideal) Sc .f32 0x00000000#32)))
            (subf (F := Ideal) (addf (F := Ideal) sa sb) inter)
            (broadcastInDim Cnt ![] hb (id (constant (F := Ideal) Sc .f32 0x3F800000#32)))))
        (broadcastInDim Cnt ![] hb (id (constant (F := Ideal) Sc .f32 0x3F800000#32))))
      (constant (F := Ideal) Sc .f32 0x00000000#32) hr h0)
    (constant (F := Ideal) Sc .f32 0x42C00000#32)

end Cert.ThresholdCounts

end
-- ==== Proof.LibIndicatorWord.lean ====
/-
  A one-bit word as an extended real, two ways.

  A comparison yields a one-bit word.  Converted to a float it is 0 or 1, whichever of the two routes a program takes:
  read unsigned directly, or first widened to 32 bits by zero extension and then read signed — the widened word is 0 or
  1, whose signed and unsigned readings agree.  And the conjunction of two such words, converted, is the product of
  the two conversions: on {0, 1} `and` is multiplication.  At the extended reals the conversions are exact, so these
  are equalities of extended reals.
-/
import Idealize.ShloMosaic.PureOps.Ideal.Laws
import Idealize.ShloMosaic.Lib.ValueIdx

namespace Cert.Lib.IndicatorWord

open Idealize.ShloMosaic Idealize.ShloMosaic.ValueIdx

/-- A one-bit word is 0 or 1. -/
theorem zero_or_one (b : BitVec 1) : b = 0#1 ∨ b = 1#1 := by
  by_cases h : b = 1#1
  · exact Or.inr h
  · exact Or.inl (eq_zero_of_ne_one h)

/-- Widened by zero extension and read signed, a one-bit word is what it is read unsigned. -/
theorem toInt_widened (b : BitVec 1) : (b.setWidth 32).toInt = (b.toNat : ℤ) := by
  rcases zero_or_one b with rfl | rfl <;> decide

/-- Read unsigned, the conjunction of two one-bit words is the product of the two. -/
theorem toNat_and (b c : BitVec 1) : (IntOp.andi b c).toNat = b.toNat * c.toNat := by
  rcases zero_or_one b with rfl | rfl <;> rcases zero_or_one c with rfl | rfl <;> decide

/-- At the extended reals: widening a one-bit word and converting it as a signed integer is converting it as an
    unsigned one. -/
theorem sitofp_widened (φ : FTy) (b : BitVec 1) :
    FloatOps.sitofp (F := Ideal) φ (b.setWidth 32) = FloatOps.uitofp (F := Ideal) φ b := by
  show (((b.setWidth 32).toInt : ℝ) : EReal) = ((b.toNat : ℝ) : EReal)
  rw [toInt_widened]
  norm_cast

/-- At the extended reals: the conjunction of two one-bit words, widened and converted, is the product of the two
    words converted. -/
theorem sitofp_widened_and (φ : FTy) (b c : BitVec 1) :
    FloatOps.sitofp (F := Ideal) φ ((IntOp.andi b c).setWidth 32)
      = FloatOps.uitofp (F := Ideal) φ b * FloatOps.uitofp (F := Ideal) φ c := by
  rw [sitofp_widened]
  show (((IntOp.andi b c).toNat : ℝ) : EReal) = ((b.toNat : ℝ) : EReal) * ((c.toNat : ℝ) : EReal)
  rw [toNat_and, ← EReal.coe_mul]
  norm_cast

end Cert.Lib.IndicatorWord
-- ==== Proof.TileCounts.lean ====
/-
  One tile's contribution to each accumulator, read at a (batch, channel) entry, over the extended reals.

  A grid point holds a tile of each input: 8 batches × 3 channels × 128 rows × 512 columns.  The body thresholds both
  tiles at one half, turns the three one-bit masks (first ∧ second, first, second) into 0/1 floats, and sums each over
  the tile's 128 rows and then its 512 columns.  Read at batch `p`, channel `q` of the tile, the value stored into an
  accumulator is what was read from it plus

      Σ_{k < 512} Σ_{h < 128} [x(p, q, h, k)] · [y(p, q, h, k)]      (respectively [x(…)], [y(…)]),

  where `[v]` is 1 when `v ≥ 1/2` and 0 otherwise: the mask's word, widened and converted, is that number, and the
  conjunction of two masks converts to the product.
-/
import proofs.«174937_j25640954757369_2_alg».proof.Proof.Gen.KernelIdeal.Skeleton
import proofs.«174937_j25640954757369_2_alg».proof.Proof.CountsSpec
import proofs.«174937_j25640954757369_2_alg».proof.Proof.LibIndicatorWord
import Idealize.ShloMosaic.Lib.Pipeline.Value

noncomputable section

open Idealize.ShloMosaic Idealize.ShloMosaic.TcCoe Idealize.SL.Sem Idealize.ShloMosaic.ValueIdx

namespace Cert.KernelIdeal.TileCounts

open Cert.KernelIdeal Cert.KernelIdeal.Gen Cert.ThresholdCounts Cert.Lib.IndicatorWord

/-- Summing a tile over its rows and then over its columns, read at `(p, q)`: the double sum over columns and rows. -/
theorem rows_then_columns (v : FVec Ideal S8x3x128x512 .f32) (p : Fin 8) (q : Fin 3) :
    multiReduction (F := Ideal) .add [2] S8x3
        (multiReduction (F := Ideal) .add [2] S8x3x512 v 0x00000000#32 reduces_S8x3x128x512_S8x3x512 (.inl rfl) rfl)
        0x00000000#32 reduces_S8x3x512_S8x3 (.inl rfl) rfl (ix2 p q)
      = ∑ k : Fin 512, ∑ h : Fin 128, v (ix4 p q h k) := by
  refine (Ideal.multiReduction_add_single _ _ reduces_S8x3x512_S8x3 _ _ (ix2 p q)).trans ?_
  show ∑ k : Fin 512, _ = _
  refine Finset.sum_congr rfl fun k _ => ?_
  refine (Ideal.multiReduction_add_single _ _ reduces_S8x3x128x512_S8x3x512 _ _ _).trans ?_
  show ∑ h : Fin 128, _ = _
  refine Finset.sum_congr rfl fun h _ => congrArg v ?_
  funext a
  apply Fin.ext
  match a with
  | ⟨0, _⟩ => rfl
  | ⟨1, _⟩ => rfl
  | ⟨2, _⟩ => rfl
  | ⟨3, _⟩ => rfl

/-- The zero fill of an accumulator is the extended real zero at every entry. -/
theorem zero_fill_2 (j : S8x3.Idx) : k0_pay2 (F := Ideal) j = 0 := Ideal.ofBits_zero_f32
theorem zero_fill_3 (j : S8x3.Idx) : k0_pay3 (F := Ideal) j = 0 := Ideal.ofBits_zero_f32
theorem zero_fill_4 (j : S8x3.Idx) : k0_pay4 (F := Ideal) j = 0 := Ideal.ofBits_zero_f32

/-- The count of positions where both tiles reach the threshold, added to what the accumulator held. -/
theorem both_added (x0 x1 : Vec Ideal S8x3x128x512 .f32) (acc : Vec Ideal S8x3 .f32) (p : Fin 8) (q : Fin 3) :
    k0_pay8 x0 x1 acc (ix2 p q)
      = acc (ix2 p q) + ∑ k : Fin 512, ∑ h : Fin 128, reaches (x0 (ix4 p q h k)) * reaches (x1 (ix4 p q h k)) := by
  unfold k0_pay8
  dsimp only
  refine (congrArg₂ (· + ·) (congrFun (shapeCast_self acc _) (ix2 p q)) (rows_then_columns _ p q)).trans ?_
  refine congrArg (acc (ix2 p q) + ·) (Finset.sum_congr rfl fun k _ => Finset.sum_congr rfl fun h _ => ?_)
  exact sitofp_widened_and .f32 _ _

/-- The count of positions where the first tile reaches the threshold, added to what the accumulator held. -/
theorem first_added (x0 : Vec Ideal S8x3x128x512 .f32) (acc : Vec Ideal S8x3 .f32) (p : Fin 8) (q : Fin 3) :
    k0_pay9 x0 acc (ix2 p q) = acc (ix2 p q) + ∑ k : Fin 512, ∑ h : Fin 128, reaches (x0 (ix4 p q h k)) := by
  unfold k0_pay9
  dsimp only
  refine (congrArg₂ (· + ·) (congrFun (shapeCast_self acc _) (ix2 p q)) (rows_then_columns _ p q)).trans ?_
  refine congrArg (acc (ix2 p q) + ·) (Finset.sum_congr rfl fun k _ => Finset.sum_congr rfl fun h _ => ?_)
  exact sitofp_widened .f32 _

/-- The count of positions where the second tile reaches the threshold, added to what the accumulator held. -/
theorem second_added (x1 : Vec Ideal S8x3x128x512 .f32) (acc : Vec Ideal S8x3 .f32) (p : Fin 8) (q : Fin 3) :
    k0_pay1 (k0_pay7 x1) acc (ix2 p q) = acc (ix2 p q) + ∑ k : Fin 512, ∑ h : Fin 128, reaches (x1 (ix4 p q h k)) := by
  unfold k0_pay1 k0_pay7
  dsimp only
  refine (congrArg₂ (· + ·) (congrFun (shapeCast_self acc _) (ix2 p q)) (rows_then_columns _ p q)).trans ?_
  refine congrArg (acc (ix2 p q) + ·) (Finset.sum_congr rfl fun k _ => Finset.sum_congr rfl fun h _ => ?_)
  exact sitofp_widened .f32 _

end Cert.KernelIdeal.TileCounts

end
-- ==== Proof.RunningCounts.lean ====
/-
  The accumulators after each grid point, over the extended reals.

  The sixteen grid points come four to a batch tile, one per row-tile, in order.  After point `n` each accumulator, read
  at batch `p`, channel `q` of the tile, holds the sum of the tile counts of the points of `n`'s batch tile up to and
  including `n`: on the first row-tile it is zero plus that point's count; on a later one it is what the point before
  left plus that point's count.  By induction on the point.
-/
import proofs.«174937_j25640954757369_2_alg».proof.Proof.Gen.KernelIdeal.Frame
import proofs.«174937_j25640954757369_2_alg».proof.Proof.CasePieces
import proofs.«174937_j25640954757369_2_alg».proof.Proof.TileCounts

noncomputable section

open Idealize.ShloMosaic Idealize.ShloMosaic.TcCoe Idealize.SL.Sem Idealize.ShloMosaic.ValueIdx

namespace Cert.KernelIdeal.Running

open Cert.KernelIdeal Cert.KernelIdeal.Gen Cert.ThresholdCounts Cert.KernelIdeal.Counts Cert.KernelIdeal.TileCounts

variable (m : (ℓ : Loc nD τ sig) → Buf (Elt Ideal) ℓ)

/-- The two inputs' tiles at a grid point. -/
abbrev tile0 (c : Dev nD) (t : Fin cfg0.N) : Vec Ideal S8x3x128x512 .f32 := iblk m c 0 t
abbrev tile1 (c : Dev nD) (t : Fin cfg0.N) : Vec Ideal S8x3x128x512 .f32 := iblk m c 1 t

/-- A grid point's three counts at batch `p`, channel `q` of its tile. -/
def tileBoth (c : Dev nD) (t : Fin cfg0.N) (p : Fin 8) (q : Fin 3) : EReal :=
  ∑ k : Fin 512, ∑ h : Fin 128, reaches (tile0 m c t (ix4 p q h k)) * reaches (tile1 m c t (ix4 p q h k))
def tileFirst (c : Dev nD) (t : Fin cfg0.N) (p : Fin 8) (q : Fin 3) : EReal :=
  ∑ k : Fin 512, ∑ h : Fin 128, reaches (tile0 m c t (ix4 p q h k))
def tileSecond (c : Dev nD) (t : Fin cfg0.N) (p : Fin 8) (q : Fin 3) : EReal :=
  ∑ k : Fin 512, ∑ h : Fin 128, reaches (tile1 m c t (ix4 p q h k))

/-- The points of `n`'s batch tile up to and including `n`. -/
def upTo (n : ℕ) : Finset (Fin cfg0.N) := Finset.univ.filter fun s => n - n % 4 ≤ s.val ∧ s.val ≤ n

theorem upTo_first (n : ℕ) (h : n < cfg0.N) (h0 : n % 4 = 0) : upTo n = {(⟨n, h⟩ : Fin cfg0.N)} := by
  ext s
  simp only [upTo, Finset.mem_filter, Finset.mem_univ, true_and, Finset.mem_singleton, Fin.ext_iff]
  omega

theorem upTo_later (n : ℕ) (h : n + 1 < cfg0.N) (h0 : ¬(n + 1) % 4 = 0) :
    upTo (n + 1) = insert (⟨n + 1, h⟩ : Fin cfg0.N) (upTo n) ∧ (⟨n + 1, h⟩ : Fin cfg0.N) ∉ upTo n := by
  constructor
  · ext s
    simp only [upTo, Finset.mem_filter, Finset.mem_univ, true_and, Finset.mem_insert, Fin.ext_iff]
    omega
  · simp only [upTo, Finset.mem_filter, Finset.mem_univ, true_and]
    omega

/-- On the first row-tile of a batch tile each accumulator ends at that point's count. -/
theorem at_first (c : Dev nD) (n : ℕ) (h : n < cfg0.N) (h0 : n % 4 = 0) (p : Fin 8) (q : Fin 3) :
    (outsAt0 m c n h).1 (ix2 p q) = tileBoth m c ⟨n, h⟩ p q
    ∧ (outsAt0 m c n h).2.1 (ix2 p q) = tileFirst m c ⟨n, h⟩ p q
    ∧ (outsAt0 m c n h).2.2 (ix2 p q) = tileSecond m c ⟨n, h⟩ p q := by
  have e : outsAt0 m c n h = _ := outsAt0_A m c ⟨n, h⟩ h0
  rw [e]
  dsimp only
  refine ⟨?_, ?_, ?_⟩
  · refine (congrFun (piece_A_2 (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) ((hcond0_0 (⟨n, h⟩ : Fin cfg0.N)).mpr h0) (iblk m c 0 (⟨n, h⟩ : Fin cfg0.N)) (iblk m c 1 (⟨n, h⟩ : Fin cfg0.N))) (ix2 p q)).trans ?_
    refine (both_added (tile0 m c (⟨n, h⟩ : Fin cfg0.N)) (tile1 m c (⟨n, h⟩ : Fin cfg0.N)) (k0_pay2 (F := Ideal)) p q).trans ?_
    rw [zero_fill_2, zero_add]
    rfl
  · refine (congrFun (piece_A_3 (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) ((hcond0_0 (⟨n, h⟩ : Fin cfg0.N)).mpr h0) (iblk m c 0 (⟨n, h⟩ : Fin cfg0.N)) (iblk m c 1 (⟨n, h⟩ : Fin cfg0.N))) (ix2 p q)).trans ?_
    refine (first_added (tile0 m c (⟨n, h⟩ : Fin cfg0.N)) (k0_pay3 (F := Ideal)) p q).trans ?_
    rw [zero_fill_3, zero_add]
    rfl
  · refine (congrFun (piece_A_4 (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) ((hcond0_0 (⟨n, h⟩ : Fin cfg0.N)).mpr h0) (iblk m c 0 (⟨n, h⟩ : Fin cfg0.N)) (iblk m c 1 (⟨n, h⟩ : Fin cfg0.N))) (ix2 p q)).trans ?_
    refine (second_added (tile1 m c (⟨n, h⟩ : Fin cfg0.N)) (k0_pay4 (F := Ideal)) p q).trans ?_
    rw [zero_fill_4, zero_add]
    rfl

/-- On a later row-tile each accumulator ends at what the point before left plus that point's count. -/
theorem at_later (c : Dev nD) (n : ℕ) (h : n + 1 < cfg0.N) (h0 : ¬(n + 1) % 4 = 0) (p : Fin 8) (q : Fin 3) :
    (outsAt0 m c (n + 1) h).1 (ix2 p q) = (outsAt0 m c n (Nat.lt_of_succ_lt h)).1 (ix2 p q) + tileBoth m c ⟨n + 1, h⟩ p q
    ∧ (outsAt0 m c (n + 1) h).2.1 (ix2 p q) = (outsAt0 m c n (Nat.lt_of_succ_lt h)).2.1 (ix2 p q) + tileFirst m c ⟨n + 1, h⟩ p q
    ∧ (outsAt0 m c (n + 1) h).2.2 (ix2 p q) = (outsAt0 m c n (Nat.lt_of_succ_lt h)).2.2 (ix2 p q) + tileSecond m c ⟨n + 1, h⟩ p q := by
  have e : outsAt0 m c (n + 1) h = _ := outsAt0_B m c ⟨n + 1, h⟩ h0
  rw [e]
  dsimp only
  refine ⟨?_, ?_, ?_⟩
  · refine (congrFun (piece_B_2 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (fun hc => h0 ((hcond0_0 (⟨n + 1, h⟩ : Fin cfg0.N)).mp hc)) (iblk m c 0 (⟨n + 1, h⟩ : Fin cfg0.N)) (iblk m c 1 (⟨n + 1, h⟩ : Fin cfg0.N)) (outsAt0 m c n (Nat.lt_of_succ_lt h)).1 (outsAt0 m c n (Nat.lt_of_succ_lt h)).2.1 (outsAt0 m c n (Nat.lt_of_succ_lt h)).2.2) (ix2 p q)).trans ?_
    exact both_added (tile0 m c (⟨n + 1, h⟩ : Fin cfg0.N)) (tile1 m c (⟨n + 1, h⟩ : Fin cfg0.N)) (outsAt0 m c n (Nat.lt_of_succ_lt h)).1 p q
  · refine (congrFun (piece_B_3 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (fun hc => h0 ((hcond0_0 (⟨n + 1, h⟩ : Fin cfg0.N)).mp hc)) (iblk m c 0 (⟨n + 1, h⟩ : Fin cfg0.N)) (iblk m c 1 (⟨n + 1, h⟩ : Fin cfg0.N)) (outsAt0 m c n (Nat.lt_of_succ_lt h)).1 (outsAt0 m c n (Nat.lt_of_succ_lt h)).2.1 (outsAt0 m c n (Nat.lt_of_succ_lt h)).2.2) (ix2 p q)).trans ?_
    exact first_added (tile0 m c (⟨n + 1, h⟩ : Fin cfg0.N)) (outsAt0 m c n (Nat.lt_of_succ_lt h)).2.1 p q
  · refine (congrFun (piece_B_4 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (fun hc => h0 ((hcond0_0 (⟨n + 1, h⟩ : Fin cfg0.N)).mp hc)) (iblk m c 0 (⟨n + 1, h⟩ : Fin cfg0.N)) (iblk m c 1 (⟨n + 1, h⟩ : Fin cfg0.N)) (outsAt0 m c n (Nat.lt_of_succ_lt h)).1 (outsAt0 m c n (Nat.lt_of_succ_lt h)).2.1 (outsAt0 m c n (Nat.lt_of_succ_lt h)).2.2) (ix2 p q)).trans ?_
    exact second_added (tile1 m c (⟨n + 1, h⟩ : Fin cfg0.N)) (outsAt0 m c n (Nat.lt_of_succ_lt h)).2.2 p q

/-- After point `n` each accumulator holds the sum of the counts of the points of `n`'s batch tile up to `n`. -/
theorem running (c : Dev nD) (n : ℕ) : ∀ (h : n < cfg0.N) (p : Fin 8) (q : Fin 3),
    (outsAt0 m c n h).1 (ix2 p q) = ∑ s ∈ upTo n, tileBoth m c s p q
    ∧ (outsAt0 m c n h).2.1 (ix2 p q) = ∑ s ∈ upTo n, tileFirst m c s p q
    ∧ (outsAt0 m c n h).2.2 (ix2 p q) = ∑ s ∈ upTo n, tileSecond m c s p q := by
  induction n with
  | zero =>
    intro h p q
    rw [upTo_first 0 h rfl, Finset.sum_singleton, Finset.sum_singleton, Finset.sum_singleton]
    exact at_first m c 0 h rfl p q
  | succ n ih =>
    intro h p q
    by_cases h0 : (n + 1) % 4 = 0
    · rw [upTo_first (n + 1) h h0, Finset.sum_singleton, Finset.sum_singleton, Finset.sum_singleton]
      exact at_first m c (n + 1) h h0 p q
    · obtain ⟨hins, hnot⟩ := upTo_later n h h0
      rw [hins, Finset.sum_insert hnot, Finset.sum_insert hnot, Finset.sum_insert hnot]
      obtain ⟨i1, i2, i3⟩ := ih (Nat.lt_of_succ_lt h) p q
      obtain ⟨b1, b2, b3⟩ := at_later m c n h h0 p q
      exact ⟨b1.trans (by rw [i1, add_comm]), b2.trans (by rw [i2, add_comm]), b3.trans (by rw [i3, add_comm])⟩

end Cert.KernelIdeal.Running

end
-- ==== Proof.LibTrailingAxesSum.lean ====
/-
  Two laws of finite sums over the indices of an array, in any additive commutative monoid.

  * A sum over the indices of a rank-4 array that a reduction over its two trailing axes sends to a given index
    `(p, q)` of the rank-2 result — which is how a reduce over axes [2, 3] reads at `(p, q)` — is the double sum over the
    two trailing coordinates of the array at `(p, q, H, W)`: the indices over `(p, q)` are exactly the `(p, q, H, W)`.
  * A sum over `nb · B` consecutive positions is the sum, over `nb` tiles, of the sum over the `B` positions of the
    tile: position `B · b + h` is position `h` of tile `b`, and every position is of that form exactly once.

  Together they say that accumulating, tile after tile along one trailing axis, the sums over that tile and the other
  trailing axis gives the reduction over both trailing axes.
-/
import Idealize.ShloMosaic.PureOps.Ideal.Laws
import Idealize.ShloMosaic.Lib.ValueIdx

namespace Cert.Lib.TrailingAxesSum

open Idealize.ShloMosaic Idealize.ShloMosaic.ValueIdx

variable {M : Type} [AddCommMonoid M] {n0 n1 n2 n3 : Nat}

/-- The indices that a reduction over the two trailing axes sends to `(p, q)` are the `(p, q, H, W)`: the sum over
    them is the double sum over `H` and `W`. -/
theorem sum_over_leading (h : (⟨4, ![n0, n1, n2, n3]⟩ : Shape).ReducesTo [2, 3] ⟨2, ![n0, n1]⟩)
    (f : (⟨4, ![n0, n1, n2, n3]⟩ : Shape).Idx → M) (p : Fin n0) (q : Fin n1) :
    ∑ i ∈ Finset.univ.filter (fun i => h.drop i = ix2 p q), f i = ∑ H : Fin n2, ∑ W : Fin n3, f (ix4 p q H W) := by
  rw [← Finset.sum_product']
  have back : ∀ i ∈ Finset.univ.filter (fun i => h.drop i = ix2 p q), ix4 p q (i 2 : Fin n2) (i 3 : Fin n3) = i := by
    intro i hi
    have hd : h.drop i = ix2 p q := (Finset.mem_filter.mp hi).2
    funext a
    apply Fin.ext
    match a with
    | ⟨0, _⟩ => exact (congrArg Fin.val (congrFun hd 0)).symm
    | ⟨1, _⟩ => exact (congrArg Fin.val (congrFun hd 1)).symm
    | ⟨2, _⟩ => rfl
    | ⟨3, _⟩ => rfl
  refine Finset.sum_nbij' (fun i => ((i 2 : Fin n2), (i 3 : Fin n3))) (fun pr => ix4 p q pr.1 pr.2) ?_ ?_ back ?_ ?_
  · intro i _
    exact Finset.mem_product.mpr ⟨Finset.mem_univ _, Finset.mem_univ _⟩
  · intro pr _
    refine Finset.mem_filter.mpr ⟨Finset.mem_univ _, ?_⟩
    funext b
    apply Fin.ext
    match b with
    | ⟨0, _⟩ => rfl
    | ⟨1, _⟩ => rfl
  · intro pr _
    rfl
  · intro i hi
    exact congrArg f (back i hi).symm

/-- Position `h` of tile `b`, among `nb` tiles of `B` positions, is a position of the whole. -/
theorem tile_pos_lt {nb B : Nat} (b : Fin nb) (h : Fin B) : B * b.val + h.val < nb * B :=
  calc B * b.val + h.val < B * b.val + B := Nat.add_lt_add_left h.isLt _
    _ = B * (b.val + 1) := (Nat.mul_succ _ _).symm
    _ ≤ B * nb := Nat.mul_le_mul_left _ b.isLt
    _ = nb * B := Nat.mul_comm _ _

/-- A sum over `nb · B` positions is the sum over the tiles of the sums over each tile's positions. -/
theorem sum_by_tiles (nb B : Nat) (ψ : Fin (nb * B) → M) :
    ∑ H : Fin (nb * B), ψ H = ∑ b : Fin nb, ∑ h : Fin B, ψ ⟨B * b.val + h.val, tile_pos_lt b h⟩ := by
  rw [← Equiv.sum_comp finProdFinEquiv ψ, Fintype.sum_prod_type]
  refine Finset.sum_congr rfl fun b _ => Finset.sum_congr rfl fun h _ => congrArg ψ (Fin.ext ?_)
  show h.val + B * b.val = B * b.val + h.val
  exact Nat.add_comm _ _

end Cert.Lib.TrailingAxesSum
-- ==== Proof.CountsLaws.lean ====
/-
  The sum over the 512 × 512 positions of a (batch, channel) pair, spelt two ways.

  * The host's reduce with `add` over axes [2, 3] from the zero, read at (batch, channel), is that sum: it adds, to the
    initial zero, the array over exactly the indices whose first two coordinates are that pair.
  * Cutting the 512 rows into four tiles of 128, the sum is the sum over the four tiles of the sums over a tile's 128 rows
    and the 512 columns, in whichever order the two inner sums are taken: addition of extended reals is commutative and
    associative, so no finiteness is needed to regroup.
-/
import proofs.«174937_j25640954757369_2_alg».proof.Proof.CountsSpec
import proofs.«174937_j25640954757369_2_alg».proof.Proof.LibTrailingAxesSum

noncomputable section

namespace Cert.ThresholdCounts

open Idealize.ShloMosaic Idealize.ShloMosaic.ValueIdx Cert.Lib.TrailingAxesSum

/-- The host's sum over the two trailing axes, from the zero, is the sum over the positions of each pair. -/
theorem hostSum_eq_overPositions (hred : Arr.ReducesTo [2, 3] Cnt) (h0 : 0 < Sc.numel) (f : FVec Ideal Arr .f32) :
    Host.reduceAdd (F := Ideal) f (constant (F := Ideal) Sc .f32 0x00000000#32) hred h0 = overPositions f := by
  funext j
  obtain ⟨P, q, rfl⟩ : ∃ (P : Fin 32) (q : Fin 3), j = ix2 P q := ⟨j 0, j 1, eq_ix2 j⟩
  refine (hostReduceAdd_apply f _ hred h0 (ix2 P q)).trans ?_
  unfold Ideal.hostReduceAdd
  show Ideal.ofBits .f32 0x00000000#32 + _ = _
  rw [Ideal.ofBits_zero_f32, zero_add, sum_over_leading hred f P q]
  rfl

/-- Row `h` of row-tile `b` is row `128 b + h` of the array. -/
abbrev tileRow (b : Fin 4) (h : Fin 128) : Fin 512 := ⟨128 * b.val + h.val, tile_pos_lt b h⟩

/-- The sum over a pair's positions is the sum over the four row-tiles of each tile's sum over columns and rows. -/
theorem overPositions_by_tiles (f : Arr.Idx → EReal) (P : Fin 32) (q : Fin 3) :
    overPositions f (ix2 P q) = ∑ b : Fin 4, ∑ k : Fin 512, ∑ h : Fin 128, f (ix4 P q (tileRow b h) k) := by
  show ∑ H : Fin 512, ∑ W : Fin 512, f (ix4 P q H W) = _
  rw [Finset.sum_comm, Finset.sum_comm (s := (Finset.univ : Finset (Fin 4)))]
  exact Finset.sum_congr rfl fun k _ => sum_by_tiles 4 128 fun H => f (ix4 P q H k)

end Cert.ThresholdCounts

end
-- ==== Proof.TileReads.lean ====
/-
  A tile read through its window.

  At grid point `t` both inputs' windows hold batch tile `t / 4`, row-tile `t % 4`, every channel and column; the three
  outputs' windows hold batch tile `t / 4`, every channel (the printed index maps, decided over the sixteen points).  So
  entry (p, q, h, k) of an input's tile at row-tile `b` of the batch tile ending at point `n` is the argument array at
  batch `8 (n / 4) + p`, channel `q`, row `128 b + h`, column `k`.
-/
import proofs.«174937_j25640954757369_2_alg».proof.Proof.Gen.KernelIdeal.Frame
import proofs.«174937_j25640954757369_2_alg».proof.Proof.RunningCounts
import proofs.«174937_j25640954757369_2_alg».proof.Proof.CountsLaws
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.ThresholdCounts Cert.KernelIdeal.Running Cert.Lib.TrailingAxesSum

variable (m : (ℓ : Loc nD τ sig) → Buf (Elt Ideal) ℓ)

/-- The two argument arrays, as the region finds them. -/
abbrev argX (c : Dev nD) : Arr.Idx → EReal := m ((c : Thread nD τ).loc main_arg0)
abbrev argY (c : Dev nD) : Arr.Idx → EReal := m ((c : Thread nD τ).loc main_arg1)

/-- The printed index maps, decided over the grid: at point `t` both inputs' blocks are batch tile `t / 4`, row-tile
    `t % 4`, all channels and columns; the three outputs' blocks are batch tile `t / 4`, all channels. -/
theorem idx_facts : ∀ t : Fin cfg0.N,
    win0_0.index t (0 : Fin 4) = t.val / 4 ∧ win0_0.index t (1 : Fin 4) = 0 ∧ win0_0.index t (2 : Fin 4) = t.val % 4 ∧ win0_0.index t (3 : Fin 4) = 0
    ∧ win0_1.index t (0 : Fin 4) = t.val / 4 ∧ win0_1.index t (1 : Fin 4) = 0 ∧ win0_1.index t (2 : Fin 4) = t.val % 4 ∧ win0_1.index t (3 : Fin 4) = 0
    ∧ win0_2.index t (0 : Fin 2) = t.val / 4 ∧ win0_2.index t (1 : Fin 2) = 0
    ∧ win0_3.index t (0 : Fin 2) = t.val / 4 ∧ win0_3.index t (1 : Fin 2) = 0
    ∧ win0_4.index t (0 : Fin 2) = t.val / 4 ∧ win0_4.index t (1 : Fin 2) = 0 :=
  (by decide +kernel : ∀ t : Fin grid0.N, _)

theorem group_lt (n : ℕ) (hn : n < cfg0.N) (b : Fin 4) : n - 3 + b.val < cfg0.N := by
  have hN : cfg0.N = 16 := N_0
  have := b.isLt
  omega

theorem batch_lt (n : ℕ) (hn : n < cfg0.N) (p : Fin 8) : 8 * (n / 4) + p.val < 32 := by
  have hN : cfg0.N = 16 := N_0
  have := p.isLt
  omega

/-- Input 0's tile at row-tile `b` of the batch tile that ends at point `n`, read at (p, q, h, k), is the argument
    array at batch `8 (n / 4) + p`, channel `q`, row `128 b + h`, column `k`. -/
theorem tile0_read (c : Dev nD) (n : ℕ) (hn : n < cfg0.N) (h3 : n % 4 = 3) (b : Fin 4) (p : Fin 8) (q : Fin 3) (h : Fin 128) (k : Fin 512) :
    tile0 m c ⟨n - 3 + b.val, group_lt n hn b⟩ (ix4 p q h k) = argX m c (ix4 ⟨8 * (n / 4) + p.val, batch_lt n hn p⟩ q (tileRow b h) k) := by
  obtain ⟨e00, e01, e02, e03, e10, e11, e12, e13, e20, e21, e30, e31, e40, e41⟩ := idx_facts ⟨n - 3 + b.val, group_lt n hn b⟩
  have hb : b.val < 4 := b.isLt
  show iblk m c 0 ⟨n - 3 + b.val, group_lt n hn b⟩ (ix4 p q h k) = _
  unfold iblk
  rw [View.read_apply]
  show m ((c : Thread nD τ).loc main_arg0) _ = m ((c : Thread nD τ).loc main_arg0) _
  congr 1
  funext a
  apply Fin.ext
  match a with
  | ⟨0, _⟩ =>
    show win0_0.index ⟨n - 3 + b.val, group_lt n hn b⟩ (0 : Fin 4) * 8 + 1 * p.val = 8 * (n / 4) + p.val
    rw [e00]; show (n - 3 + b.val) / 4 * 8 + 1 * p.val = 8 * (n / 4) + p.val; omega
  | ⟨1, _⟩ =>
    show win0_0.index ⟨n - 3 + b.val, group_lt n hn b⟩ (1 : Fin 4) * 3 + 1 * q.val = q.val
    rw [e01]; omega
  | ⟨2, _⟩ =>
    show win0_0.index ⟨n - 3 + b.val, group_lt n hn b⟩ (2 : Fin 4) * 128 + 1 * h.val = 128 * b.val + h.val
    rw [e02]; show (n - 3 + b.val) % 4 * 128 + 1 * h.val = 128 * b.val + h.val; omega
  | ⟨3, _⟩ =>
    show win0_0.index ⟨n - 3 + b.val, group_lt n hn b⟩ (3 : Fin 4) * 512 + 1 * k.val = k.val
    rw [e03]; omega

/-- Input 1's tile at row-tile `b` of the batch tile that ends at point `n`, read at (p, q, h, k), is the argument
    array at batch `8 (n / 4) + p`, channel `q`, row `128 b + h`, column `k`. -/
theorem tile1_read (c : Dev nD) (n : ℕ) (hn : n < cfg0.N) (h3 : n % 4 = 3) (b : Fin 4) (p : Fin 8) (q : Fin 3) (h : Fin 128) (k : Fin 512) :
    tile1 m c ⟨n - 3 + b.val, group_lt n hn b⟩ (ix4 p q h k) = argY m c (ix4 ⟨8 * (n / 4) + p.val, batch_lt n hn p⟩ q (tileRow b h) k) := by
  obtain ⟨e00, e01, e02, e03, e10, e11, e12, e13, e20, e21, e30, e31, e40, e41⟩ := idx_facts ⟨n - 3 + b.val, group_lt n hn b⟩
  have hb : b.val < 4 := b.isLt
  show iblk m c 1 ⟨n - 3 + b.val, group_lt n hn b⟩ (ix4 p q h k) = _
  unfold iblk
  rw [View.read_apply]
  show m ((c : Thread nD τ).loc main_arg1) _ = m ((c : Thread nD τ).loc main_arg1) _
  congr 1
  funext a
  apply Fin.ext
  match a with
  | ⟨0, _⟩ =>
    show win0_1.index ⟨n - 3 + b.val, group_lt n hn b⟩ (0 : Fin 4) * 8 + 1 * p.val = 8 * (n / 4) + p.val
    rw [e10]; show (n - 3 + b.val) / 4 * 8 + 1 * p.val = 8 * (n / 4) + p.val; omega
  | ⟨1, _⟩ =>
    show win0_1.index ⟨n - 3 + b.val, group_lt n hn b⟩ (1 : Fin 4) * 3 + 1 * q.val = q.val
    rw [e11]; omega
  | ⟨2, _⟩ =>
    show win0_1.index ⟨n - 3 + b.val, group_lt n hn b⟩ (2 : Fin 4) * 128 + 1 * h.val = 128 * b.val + h.val
    rw [e12]; show (n - 3 + b.val) % 4 * 128 + 1 * h.val = 128 * b.val + h.val; omega
  | ⟨3, _⟩ =>
    show win0_1.index ⟨n - 3 + b.val, group_lt n hn b⟩ (3 : Fin 4) * 512 + 1 * k.val = k.val
    rw [e13]; omega

end Cert.KernelIdeal.Arrays

end
-- ==== Proof.GroupSums.lean ====
/-
  The accumulators at the last point of a batch tile.

  There the running sum ranges over the batch tile's four row-tiles.  A tile's rows are rows `128 b + h` of the argument
  arrays and its batches are batches `8 (n / 4) + p`, so the sum over the four tiles of each tile's sum over its 128 rows
  and 512 columns is the sum over all 512 × 512 positions of that batch and channel: the count.
-/
import proofs.«174937_j25640954757369_2_alg».proof.Proof.TileReads

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.ThresholdCounts Cert.KernelIdeal.Running Cert.Lib.TrailingAxesSum

variable (m : (ℓ : Loc nD τ sig) → Buf (Elt Ideal) ℓ)

/-- A sum over the points of a batch tile, taken at its last point, is the sum over its four row-tiles. -/
theorem sum_over_group (n : ℕ) (hn : n < cfg0.N) (h3 : n % 4 = 3) (φ : Fin cfg0.N → EReal) :
    ∑ s ∈ upTo n, φ s = ∑ b : Fin 4, φ ⟨n - 3 + b.val, group_lt n hn b⟩ := by
  refine Finset.sum_nbij' (fun s => (⟨(s.val - (n - 3)) % 4, Nat.mod_lt _ (by decide)⟩ : Fin 4))
    (fun b => (⟨n - 3 + b.val, group_lt n hn b⟩ : Fin cfg0.N)) ?_ ?_ ?_ ?_ ?_
  · intro s _
    exact Finset.mem_univ _
  · intro b _
    have := b.isLt
    simp only [upTo, Finset.mem_filter, Finset.mem_univ, true_and]
    omega
  · intro s hs
    simp only [upTo, Finset.mem_filter, Finset.mem_univ, true_and] at hs
    apply Fin.ext
    show n - 3 + (s.val - (n - 3)) % 4 = s.val
    omega
  · intro b _
    have := b.isLt
    apply Fin.ext
    show (n - 3 + b.val - (n - 3)) % 4 = b.val
    omega
  · intro s hs
    simp only [upTo, Finset.mem_filter, Finset.mem_univ, true_and] at hs
    refine congrArg φ (Fin.ext ?_)
    show s.val = n - 3 + (s.val - (n - 3)) % 4
    omega

/-- At the last point of a batch tile the first accumulator holds, at (p, q), the count of positions of batch
    `8 (n / 4) + p`, channel `q` where both arguments reach the threshold. -/
theorem flushed_both (c : Dev nD) (n : ℕ) (hn : n < cfg0.N) (h3 : n % 4 = 3) (p : Fin 8) (q : Fin 3) :
    (outsAt0 m c n hn).1 (ix2 p q) = both (argX m c) (argY m c) (ix2 ⟨8 * (n / 4) + p.val, batch_lt n hn p⟩ q) := by
  rw [(running m c n hn p q).1, sum_over_group n hn h3]
  unfold both
  rw [overPositions_by_tiles]
  refine Finset.sum_congr rfl fun b _ => ?_
  unfold tileBoth
  refine Finset.sum_congr rfl fun k _ => Finset.sum_congr rfl fun h _ => ?_
  rw [tile0_read m c n hn h3 b p q h k, tile1_read m c n hn h3 b p q h k]

/-- … the second, the count of positions where the first argument does; -/
theorem flushed_first (c : Dev nD) (n : ℕ) (hn : n < cfg0.N) (h3 : n % 4 = 3) (p : Fin 8) (q : Fin 3) :
    (outsAt0 m c n hn).2.1 (ix2 p q) = first (argX m c) (ix2 ⟨8 * (n / 4) + p.val, batch_lt n hn p⟩ q) := by
  rw [(running m c n hn p q).2.1, sum_over_group n hn h3]
  unfold first
  rw [overPositions_by_tiles]
  refine Finset.sum_congr rfl fun b _ => ?_
  unfold tileFirst
  refine Finset.sum_congr rfl fun k _ => Finset.sum_congr rfl fun h _ => ?_
  rw [tile0_read m c n hn h3 b p q h k]

/-- … the third, the count of positions where the second argument does. -/
theorem flushed_second (c : Dev nD) (n : ℕ) (hn : n < cfg0.N) (h3 : n % 4 = 3) (p : Fin 8) (q : Fin 3) :
    (outsAt0 m c n hn).2.2 (ix2 p q) = second (argY m c) (ix2 ⟨8 * (n / 4) + p.val, batch_lt n hn p⟩ q) := by
  rw [(running m c n hn p q).2.2, sum_over_group n hn h3]
  unfold second
  rw [overPositions_by_tiles]
  refine Finset.sum_congr rfl fun b _ => ?_
  unfold tileSecond
  refine Finset.sum_congr rfl fun k _ => Finset.sum_congr rfl fun h _ => ?_
  rw [tile1_read m c n hn h3 b p q h k]

end Cert.KernelIdeal.Arrays

end
-- ==== Proof.CountArrays.lean ====
/-
  From the accumulators' blocks to the three count arrays.

  Each of the three outputs is a [32, 3] array cut into four blocks of 8 batches; block `a` is written back once, after
  the last of the four row-tiles of batch tile `a` (points `4a + 3`), when the accumulator holds that batch tile's
  counts.  The four written-back blocks tile the array, so each output array ends holding its count array whole.
-/
import proofs.«174937_j25640954757369_2_alg».proof.Proof.GroupSums

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.ThresholdCounts Cert.KernelIdeal.Running Cert.Lib.TrailingAxesSum

variable (m : (ℓ : Loc nD τ sig) → Buf (Elt Ideal) ℓ)

/-! ## Output 2 -/

/-- Output 2's block at a point: if an [8, 3] array `X` agrees, entry by entry, with batches `8 (t / 4) + p` of a
    [32, 3] array `G`, then `X` is the point's block of `G`. -/
theorem block2_of (t : Fin cfg0.N) (X : Vec Ideal S8x3 .f32) (G : Cnt.Idx → EReal)
    (h : ∀ (p : Fin 8) (q : Fin 3), X (ix2 p q) = G (ix2 ⟨8 * (t.val / 4) + p.val, batch_lt t.val t.isLt p⟩ q)) :
    (cfg0.win 2).cut (grid0.coords t) X = ((cfg0.win 2).blk t).view.read (Elt Ideal) G := by
  obtain ⟨e00, e01, e02, e03, e10, e11, e12, e13, e20, e21, e30, e31, e40, e41⟩ := idx_facts t
  show (fun j : S8x3.Idx => X j) = fun j : S8x3.Idx => G (((cfg0.win 2).blk t).view.emb j)
  funext j
  obtain ⟨p, q, rfl⟩ : ∃ (p : Fin 8) (q : Fin 3), j = ix2 p q := ⟨j 0, j 1, eq_ix2 j⟩
  refine (h p q).trans (congrArg G ?_)
  funext a
  apply Fin.ext
  match a with
  | ⟨0, _⟩ => show 8 * (t.val / 4) + p.val = win0_2.index t (0 : Fin 2) * 8 + 1 * p.val; rw [e20]; omega
  | ⟨1, _⟩ => show q.val = win0_2.index t (1 : Fin 2) * 3 + 1 * q.val; rw [e21]; omega

/-- What a flushing point writes back to output 2 is its block of the count array. -/
theorem flushed2_eq (c : Dev nD) (t : Fin cfg0.N) (hf : (cfg0.win 2).flush t = true) :
    (dats m 0 c).flushed 2 t = ((cfg0.win 2).blk t).view.read (Elt Ideal) (both (argX m c) (argY m c)) := by
  have h3 : t.val % 4 = 3 := (flush0_2 t).mp hf
  show (cfg0.win 2).cut (grid0.coords t) ((dats m 0 c).after 2 t) = _
  rw [after0_2]
  exact block2_of t ((outsAt0 m c t.val t.isLt).1) (both (argX m c) (argY m c)) (fun p q => flushed_both m c t.val t.isLt h3 p q)

/-- An entry of the count array is in a point's block iff each coordinate is in the block's range on its axis. -/
theorem mem_blk2 (t : Fin cfg0.N) (i : S32x3.Idx) :
    i ∈ ((cfg0.win 2).blk t).view.set ↔ ∀ a : Fin 2, win0_2.index t a * S8x3.size a ≤ (i a).val ∧ (i a).val < win0_2.index t a * S8x3.size a + S8x3.size a := by
  show i ∈ ((View.whole main_v0_0).slice (win0_2.rect t)).set ↔ _
  rw [View.set_slice_whole, Rect.mem_set_unit]
  exact Iff.rfl

/-- Every entry is in the block of the last row-tile's point of its batch tile, which writes back. -/
theorem cover2 (i : S32x3.Idx) : ∃ t : Fin cfg0.N, (cfg0.win 2).flush t = true ∧ i ∈ ((cfg0.win 2).blk t).view.set := by
  have hi0 : (i 0).val < 32 := (i 0).isLt
  have hi1 : (i 1).val < 3 := (i 1).isLt
  have hN : cfg0.N = 16 := N_0
  have ht : 4 * ((i 0).val / 8) + 3 < cfg0.N := by omega
  obtain ⟨e00, e01, e02, e03, e10, e11, e12, e13, e20, e21, e30, e31, e40, e41⟩ := idx_facts ⟨4 * ((i 0).val / 8) + 3, ht⟩
  refine ⟨⟨4 * ((i 0).val / 8) + 3, ht⟩, (flush0_2 _).mpr (by show (4 * ((i 0).val / 8) + 3) % 4 = 3; omega), ?_⟩
  rw [mem_blk2]
  intro a
  match a with
  | ⟨0, _⟩ =>
    show win0_2.index ⟨4 * ((i 0).val / 8) + 3, ht⟩ (0 : Fin 2) * 8 ≤ (i 0).val ∧ (i 0).val < win0_2.index ⟨4 * ((i 0).val / 8) + 3, ht⟩ (0 : Fin 2) * 8 + 8
    rw [e20]
    show (4 * ((i 0).val / 8) + 3) / 4 * 8 ≤ (i 0).val ∧ (i 0).val < (4 * ((i 0).val / 8) + 3) / 4 * 8 + 8
    omega
  | ⟨1, _⟩ =>
    show win0_2.index ⟨4 * ((i 0).val / 8) + 3, ht⟩ (1 : Fin 2) * 3 ≤ (i 1).val ∧ (i 1).val < win0_2.index ⟨4 * ((i 0).val / 8) + 3, ht⟩ (1 : Fin 2) * 3 + 3
    rw [e21]
    omega

/-- So output 2's array ends holding the count array. -/
theorem final2 (c : Dev nD) : (dats m 0 c).arrAt 2 cfg0.N = both (argX m c) (argY m c) :=
  (dats m 0 c).arrAt_eq_of_cover 2 (both (argX m c) (argY m c)) (fun t hf => flushed2_eq m c t hf) cover2

/-! ## Output 3 -/

/-- Output 3's block at a point: if an [8, 3] array `X` agrees, entry by entry, with batches `8 (t / 4) + p` of a
    [32, 3] array `G`, then `X` is the point's block of `G`. -/
theorem block3_of (t : Fin cfg0.N) (X : Vec Ideal S8x3 .f32) (G : Cnt.Idx → EReal)
    (h : ∀ (p : Fin 8) (q : Fin 3), X (ix2 p q) = G (ix2 ⟨8 * (t.val / 4) + p.val, batch_lt t.val t.isLt p⟩ q)) :
    (cfg0.win 3).cut (grid0.coords t) X = ((cfg0.win 3).blk t).view.read (Elt Ideal) G := by
  obtain ⟨e00, e01, e02, e03, e10, e11, e12, e13, e20, e21, e30, e31, e40, e41⟩ := idx_facts t
  show (fun j : S8x3.Idx => X j) = fun j : S8x3.Idx => G (((cfg0.win 3).blk t).view.emb j)
  funext j
  obtain ⟨p, q, rfl⟩ : ∃ (p : Fin 8) (q : Fin 3), j = ix2 p q := ⟨j 0, j 1, eq_ix2 j⟩
  refine (h p q).trans (congrArg G ?_)
  funext a
  apply Fin.ext
  match a with
  | ⟨0, _⟩ => show 8 * (t.val / 4) + p.val = win0_3.index t (0 : Fin 2) * 8 + 1 * p.val; rw [e30]; omega
  | ⟨1, _⟩ => show q.val = win0_3.index t (1 : Fin 2) * 3 + 1 * q.val; rw [e31]; omega

/-- What a flushing point writes back to output 3 is its block of the count array. -/
theorem flushed3_eq (c : Dev nD) (t : Fin cfg0.N) (hf : (cfg0.win 3).flush t = true) :
    (dats m 0 c).flushed 3 t = ((cfg0.win 3).blk t).view.read (Elt Ideal) (first (argX m c)) := by
  have h3 : t.val % 4 = 3 := (flush0_3 t).mp hf
  show (cfg0.win 3).cut (grid0.coords t) ((dats m 0 c).after 3 t) = _
  rw [after0_3]
  exact block3_of t ((outsAt0 m c t.val t.isLt).2.1) (first (argX m c)) (fun p q => flushed_first m c t.val t.isLt h3 p q)

/-- An entry of the count array is in a point's block iff each coordinate is in the block's range on its axis. -/
theorem mem_blk3 (t : Fin cfg0.N) (i : S32x3.Idx) :
    i ∈ ((cfg0.win 3).blk t).view.set ↔ ∀ a : Fin 2, win0_3.index t a * S8x3.size a ≤ (i a).val ∧ (i a).val < win0_3.index t a * S8x3.size a + S8x3.size a := by
  show i ∈ ((View.whole main_v0_1).slice (win0_3.rect t)).set ↔ _
  rw [View.set_slice_whole, Rect.mem_set_unit]
  exact Iff.rfl

/-- Every entry is in the block of the last row-tile's point of its batch tile, which writes back. -/
theorem cover3 (i : S32x3.Idx) : ∃ t : Fin cfg0.N, (cfg0.win 3).flush t = true ∧ i ∈ ((cfg0.win 3).blk t).view.set := by
  have hi0 : (i 0).val < 32 := (i 0).isLt
  have hi1 : (i 1).val < 3 := (i 1).isLt
  have hN : cfg0.N = 16 := N_0
  have ht : 4 * ((i 0).val / 8) + 3 < cfg0.N := by omega
  obtain ⟨e00, e01, e02, e03, e10, e11, e12, e13, e20, e21, e30, e31, e40, e41⟩ := idx_facts ⟨4 * ((i 0).val / 8) + 3, ht⟩
  refine ⟨⟨4 * ((i 0).val / 8) + 3, ht⟩, (flush0_3 _).mpr (by show (4 * ((i 0).val / 8) + 3) % 4 = 3; omega), ?_⟩
  rw [mem_blk3]
  intro a
  match a with
  | ⟨0, _⟩ =>
    show win0_3.index ⟨4 * ((i 0).val / 8) + 3, ht⟩ (0 : Fin 2) * 8 ≤ (i 0).val ∧ (i 0).val < win0_3.index ⟨4 * ((i 0).val / 8) + 3, ht⟩ (0 : Fin 2) * 8 + 8
    rw [e30]
    show (4 * ((i 0).val / 8) + 3) / 4 * 8 ≤ (i 0).val ∧ (i 0).val < (4 * ((i 0).val / 8) + 3) / 4 * 8 + 8
    omega
  | ⟨1, _⟩ =>
    show win0_3.index ⟨4 * ((i 0).val / 8) + 3, ht⟩ (1 : Fin 2) * 3 ≤ (i 1).val ∧ (i 1).val < win0_3.index ⟨4 * ((i 0).val / 8) + 3, ht⟩ (1 : Fin 2) * 3 + 3
    rw [e31]
    omega

/-- So output 3's array ends holding the count array. -/
theorem final3 (c : Dev nD) : (dats m 0 c).arrAt 3 cfg0.N = first (argX m c) :=
  (dats m 0 c).arrAt_eq_of_cover 3 (first (argX m c)) (fun t hf => flushed3_eq m c t hf) cover3

/-! ## Output 4 -/

/-- Output 4's block at a point: if an [8, 3] array `X` agrees, entry by entry, with batches `8 (t / 4) + p` of a
    [32, 3] array `G`, then `X` is the point's block of `G`. -/
theorem block4_of (t : Fin cfg0.N) (X : Vec Ideal S8x3 .f32) (G : Cnt.Idx → EReal)
    (h : ∀ (p : Fin 8) (q : Fin 3), X (ix2 p q) = G (ix2 ⟨8 * (t.val / 4) + p.val, batch_lt t.val t.isLt p⟩ q)) :
    (cfg0.win 4).cut (grid0.coords t) X = ((cfg0.win 4).blk t).view.read (Elt Ideal) G := by
  obtain ⟨e00, e01, e02, e03, e10, e11, e12, e13, e20, e21, e30, e31, e40, e41⟩ := idx_facts t
  show (fun j : S8x3.Idx => X j) = fun j : S8x3.Idx => G (((cfg0.win 4).blk t).view.emb j)
  funext j
  obtain ⟨p, q, rfl⟩ : ∃ (p : Fin 8) (q : Fin 3), j = ix2 p q := ⟨j 0, j 1, eq_ix2 j⟩
  refine (h p q).trans (congrArg G ?_)
  funext a
  apply Fin.ext
  match a with
  | ⟨0, _⟩ => show 8 * (t.val / 4) + p.val = win0_4.index t (0 : Fin 2) * 8 + 1 * p.val; rw [e40]; omega
  | ⟨1, _⟩ => show q.val = win0_4.index t (1 : Fin 2) * 3 + 1 * q.val; rw [e41]; omega

/-- What a flushing point writes back to output 4 is its block of the count array. -/
theorem flushed4_eq (c : Dev nD) (t : Fin cfg0.N) (hf : (cfg0.win 4).flush t = true) :
    (dats m 0 c).flushed 4 t = ((cfg0.win 4).blk t).view.read (Elt Ideal) (second (argY m c)) := by
  have h3 : t.val % 4 = 3 := (flush0_4 t).mp hf
  show (cfg0.win 4).cut (grid0.coords t) ((dats m 0 c).after 4 t) = _
  rw [after0_4]
  exact block4_of t ((outsAt0 m c t.val t.isLt).2.2) (second (argY m c)) (fun p q => flushed_second m c t.val t.isLt h3 p q)

/-- An entry of the count array is in a point's block iff each coordinate is in the block's range on its axis. -/
theorem mem_blk4 (t : Fin cfg0.N) (i : S32x3.Idx) :
    i ∈ ((cfg0.win 4).blk t).view.set ↔ ∀ a : Fin 2, win0_4.index t a * S8x3.size a ≤ (i a).val ∧ (i a).val < win0_4.index t a * S8x3.size a + S8x3.size a := by
  show i ∈ ((View.whole main_v0_2).slice (win0_4.rect t)).set ↔ _
  rw [View.set_slice_whole, Rect.mem_set_unit]
  exact Iff.rfl

/-- Every entry is in the block of the last row-tile's point of its batch tile, which writes back. -/
theorem cover4 (i : S32x3.Idx) : ∃ t : Fin cfg0.N, (cfg0.win 4).flush t = true ∧ i ∈ ((cfg0.win 4).blk t).view.set := by
  have hi0 : (i 0).val < 32 := (i 0).isLt
  have hi1 : (i 1).val < 3 := (i 1).isLt
  have hN : cfg0.N = 16 := N_0
  have ht : 4 * ((i 0).val / 8) + 3 < cfg0.N := by omega
  obtain ⟨e00, e01, e02, e03, e10, e11, e12, e13, e20, e21, e30, e31, e40, e41⟩ := idx_facts ⟨4 * ((i 0).val / 8) + 3, ht⟩
  refine ⟨⟨4 * ((i 0).val / 8) + 3, ht⟩, (flush0_4 _).mpr (by show (4 * ((i 0).val / 8) + 3) % 4 = 3; omega), ?_⟩
  rw [mem_blk4]
  intro a
  match a with
  | ⟨0, _⟩ =>
    show win0_4.index ⟨4 * ((i 0).val / 8) + 3, ht⟩ (0 : Fin 2) * 8 ≤ (i 0).val ∧ (i 0).val < win0_4.index ⟨4 * ((i 0).val / 8) + 3, ht⟩ (0 : Fin 2) * 8 + 8
    rw [e40]
    show (4 * ((i 0).val / 8) + 3) / 4 * 8 ≤ (i 0).val ∧ (i 0).val < (4 * ((i 0).val / 8) + 3) / 4 * 8 + 8
    omega
  | ⟨1, _⟩ =>
    show win0_4.index ⟨4 * ((i 0).val / 8) + 3, ht⟩ (1 : Fin 2) * 3 ≤ (i 1).val ∧ (i 1).val < win0_4.index ⟨4 * ((i 0).val / 8) + 3, ht⟩ (1 : Fin 2) * 3 + 3
    rw [e41]
    omega

/-- So output 4's array ends holding the count array. -/
theorem final4 (c : Dev nD) : (dats m 0 c).arrAt 4 cfg0.N = second (argY m c) :=
  (dats m 0 c).arrAt_eq_of_cover 4 (second (argY m c)) (fun t hf => flushed4_eq m c t hf) cover4

end Cert.KernelIdeal.Arrays

end
-- ==== Proof.KernelRun.lean ====
/-
  The kernel program's run, read back, over the extended reals.

  After the region, the program's closing host operations form `union = first + second − both` from the three [32, 3]
  arrays the region wrote, the quotient `both / union` guarded to 1 where `union` is not positive, and its mean over
  the 96 entries: `meanRatio` of those three arrays, whatever the other buffers hold.  The region leaves the three
  arrays at the three count arrays of the arguments, so every weakly fair execution terminates with the result at
  `meanRatio` of the counts and with the arguments unchanged.
-/
import proofs.«174937_j25640954757369_2_alg».proof.Proof.Gen.KernelIdeal.Frame
import proofs.«174937_j25640954757369_2_alg».proof.Proof.CountArrays
import Idealize.ShloMosaic.Lib.StableHlo.Run

noncomputable section

open Idealize.ShloMosaic Idealize.ShloMosaic.TcCoe Idealize.SL.Sem Idealize.ShloMosaic.ValueIdx Idealize.ShloMosaic.StableHlo
open Idealize.ShloMosaic.Pipeline (Dat)

namespace Cert.ThresholdCounts

/-- `meanRatio` of equal arrays. -/
theorem meanRatio_congr {hb : Sc.BroadcastsInDim Cnt ![]} {hr : Cnt.ReducesTo [0, 1] Sc} {h0 : 0 < Sc.numel}
    {a a' b b' c c' : FVec Ideal Cnt .f32} (ha : a = a') (hb' : b = b') (hc : c = c') :
    meanRatio hb hr h0 a b c = meanRatio hb hr h0 a' b' c' := by
  subst ha hb' hc
  rfl

end Cert.ThresholdCounts

namespace Cert.KernelIdeal.Whole

open Cert.KernelIdeal Cert.KernelIdeal.Gen Cert.ThresholdCounts Cert.KernelIdeal.Arrays

variable (m : (ℓ : Loc nD τ sig) → Buf (Elt Ideal) ℓ) (ρ : Dev nD → PrngReg)

/-- The closing host operations compute `meanRatio` of the three arrays the region wrote, from any buffer contents. -/
theorem closing_of (W : Valuation τ sig (Elt Ideal)) :
    StableHlo.after (List.flatten [hostOps1 (F := Ideal), hostOps1_1 (F := Ideal), hostOps1_2 (F := Ideal), hostOps1_3 (F := Ideal), hostOps1_4 (F := Ideal)]) W (Proc.devRef .tc main_v11)
      = meanRatio bcast_S_S32x3 reducesTo_S32x3_S_d0_1 h_S_ (W (Proc.devRef .tc main_v0_0)) (W (Proc.devRef .tc main_v0_1)) (W (Proc.devRef .tc main_v0_2)) := by
  simp only [hostOps1, hostOps1_1, hostOps1_2, hostOps1_3, hostOps1_4, List.flatten_cons, List.flatten_nil, List.append_nil, List.cons_append, List.nil_append]
  after_results
  rfl

/-- After the region and the closing operations the result buffer holds `meanRatio` of the arguments' counts. -/
theorem closing_value (c : Dev nD) :
    Pipeline.afterTail₀ cfgs (dats m) 0 (V0 m) [hostOps1, hostOps1_1, hostOps1_2, hostOps1_3, hostOps1_4] c main_v11
      = meanRatio bcast_S_S32x3 reducesTo_S32x3_S_d0_1 h_S_ (both (argX m c) (argY m c)) (first (argX m c)) (second (argY m c)) := by
  unfold Pipeline.afterTail₀
  refine (closing_of _).trans ?_
  exact meanRatio_congr
    ((Pipeline.withArrays_arr spec0 launch0.win.arr_inj c _ _ 2).trans (final2 m c))
    ((Pipeline.withArrays_arr spec0 launch0.win.arr_inj c _ _ 3).trans (final3 m c))
    ((Pipeline.withArrays_arr spec0 launch0.win.arr_inj c _ _ 4).trans (final4 m c))

/-- The run, read: the result at `meanRatio` of the arguments' counts, the arguments unchanged. -/
theorem run : θ_run defs (onTc (τ := τ) (main (F := Ideal))) ⟨m, fun _ => 0, ρ⟩ fun r => ∀ c : Dev nD,
      r.2.mem ((c : Thread nD τ).loc main_v11) = meanRatio bcast_S_S32x3 reducesTo_S32x3_S_d0_1 h_S_ (both (argX m c) (argY m c)) (first (argX m c)) (second (argY m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v11 (Pipeline.mem_restRefs_of main_v11 rfl (by decide))).trans (closing_value m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.KernelIdeal.Whole

end
-- ==== Proof.ReferenceRun.lean ====
/-
  The reference program's run, read back.

  The reference is a straight line of 36 host operations: threshold both arrays at one half and convert the masks to
  0/1 floats; sum their product and each of them over the two trailing axes; from the three [32, 3] arrays of sums form
  `union = first + second − both`, the quotient `both / union` guarded to 1 where `union` is not positive, and the
  mean of that over the 96 entries.  Every weakly fair execution terminates with the result buffer at that composed
  term of the two argument arrays, and the arguments unchanged.  The term is stated through four small definitions
  (`mask01`, `sumTrailing`, `closing`, `result`), for any float instance.
-/
import proofs.«174937_j25640954757369_2_alg».proof.Proof.Gen.ReferenceIdeal
import Idealize.ShloMosaic.Lib.StableHlo.Run

noncomputable section

namespace Cert.ReferenceIdeal.Straight

open Cert.ReferenceIdeal Cert.ReferenceIdeal.Gen Idealize.ShloMosaic Idealize.ShloMosaic.TcCoe Idealize.SL.Sem Idealize.ShloMosaic.StableHlo

variable {F : FTy → Type} [FloatOps F]

/-- An array thresholded at one half, as 0/1 floats. -/
def mask01 (x : FVec F S32x3x512x512 .f32) : FVec F S32x3x512x512 .f32 :=
  uitofp (F := F) .f32 (cmpf (F := F) .oge x
    (broadcastInDim S32x3x512x512 ![] bcast_S_S32x3x512x512 (constant (F := F) S_ .f32 0x3F000000#32)))

/-- The sum over the two trailing axes, from the zero. -/
def sumTrailing (v : FVec F S32x3x512x512 .f32) : FVec F S32x3 .f32 :=
  Host.reduceAdd (F := F) v (constant (F := F) S_ .f32 0x00000000#32) reducesTo_S32x3x512x512_S32x3_d2_3 h_S_

/-- From the three arrays of sums: the mean over the 96 entries of `inter / union` where `union = sa + sb − inter` is
    positive and of 1 elsewhere. -/
def closing (inter sa sb : FVec F S32x3 .f32) : FVec F S_ .f32 :=
  Host.divf (F := F)
    (Host.reduceAdd (F := F)
      (select (cmpf (F := F) .ogt (subf (F := F) (addf (F := F) sa sb) inter)
                (broadcastInDim S32x3 ![] bcast_S_S32x3 (constant (F := F) S_ .f32 0x00000000#32)))
        (Host.divf (F := F) inter
          (select (cmpf (F := F) .ogt (subf (F := F) (addf (F := F) sa sb) inter)
                    (broadcastInDim S32x3 ![] bcast_S_S32x3 (constant (F := F) S_ .f32 0x00000000#32)))
            (subf (F := F) (addf (F := F) sa sb) inter)
            (broadcastInDim S32x3 ![] bcast_S_S32x3 (id (constant (F := F) S_ .f32 0x3F800000#32)))))
        (broadcastInDim S32x3 ![] bcast_S_S32x3 (id (constant (F := F) S_ .f32 0x3F800000#32))))
      (constant (F := F) S_ .f32 0x00000000#32) reducesTo_S32x3_S_d0_1 h_S_)
    (constant (F := F) S_ .f32 0x42C00000#32)

/-- The reference's result as a function of its two arguments. -/
def result (x y : FVec F S32x3x512x512 .f32) : FVec F S_ .f32 :=
  closing (F := F) (sumTrailing (F := F) (mulf (F := F) (mask01 (F := F) x) (mask01 (F := F) y)))
    (sumTrailing (F := F) (mask01 (F := F) x)) (sumTrailing (F := F) (mask01 (F := F) y))

/-- @main's 36 operations, in order (the two calls of the outlined `where` stand inline at their call sites). -/
abbrev ops : List (HloOp τ sig (Elt F)) :=
  [ nullary main_cst (constant S_ .f32 0x3F000000#32),
    unary main_cst main_v0 (broadcastInDim S32x3x512x512 ![] bcast_S_S32x3x512x512 : (⟨S_, .f32⟩ : BufTy).Contents (Elt F) → (⟨S32x3x512x512, .f32⟩ : BufTy).Contents (Elt F)),
    binary main_arg0 main_v0 main_v1 (cmpf .oge : (⟨S32x3x512x512, .f32⟩ : BufTy).Contents (Elt F) → (⟨S32x3x512x512, .f32⟩ : BufTy).Contents (Elt F) → (⟨S32x3x512x512, .i1⟩ : BufTy).Contents (Elt F)),
    unary main_v1 main_v2 (uitofp .f32 : (⟨S32x3x512x512, .i1⟩ : BufTy).Contents (Elt F) → (⟨S32x3x512x512, .f32⟩ : BufTy).Contents (Elt F)),
    nullary main_cst_0 (constant S_ .f32 0x3F000000#32),
    unary main_cst_0 main_v3 (broadcastInDim S32x3x512x512 ![] bcast_S_S32x3x512x512 : (⟨S_, .f32⟩ : BufTy).Contents (Elt F) → (⟨S32x3x512x512, .f32⟩ : BufTy).Contents (Elt F)),
    binary main_arg1 main_v3 main_v4 (cmpf .oge : (⟨S32x3x512x512, .f32⟩ : BufTy).Contents (Elt F) → (⟨S32x3x512x512, .f32⟩ : BufTy).Contents (Elt F) → (⟨S32x3x512x512, .i1⟩ : BufTy).Contents (Elt F)),
    unary main_v4 main_v5 (uitofp .f32 : (⟨S32x3x512x512, .i1⟩ : BufTy).Contents (Elt F) → (⟨S32x3x512x512, .f32⟩ : BufTy).Contents (Elt F)),
    binary main_v2 main_v5 main_v6 (mulf : (⟨S32x3x512x512, .f32⟩ : BufTy).Contents (Elt F) → (⟨S32x3x512x512, .f32⟩ : BufTy).Contents (Elt F) → (⟨S32x3x512x512, .f32⟩ : BufTy).Contents (Elt F)),
    nullary main_cst_1 (constant S_ .f32 0x00000000#32),
    binary main_v6 main_cst_1 main_v7 ((fun x v => Host.reduceAdd x v reducesTo_S32x3x512x512_S32x3_d2_3 h_S_) : (⟨S32x3x512x512, .f32⟩ : BufTy).Contents (Elt F) → (⟨S_, .f32⟩ : BufTy).Contents (Elt F) → (⟨S32x3, .f32⟩ : BufTy).Contents (Elt F)),
    nullary main_cst_2 (constant S_ .f32 0x00000000#32),
    binary main_v2 main_cst_2 main_v8 ((fun x v => Host.reduceAdd x v reducesTo_S32x3x512x512_S32x3_d2_3 h_S_) : (⟨S32x3x512x512, .f32⟩ : BufTy).Contents (Elt F) → (⟨S_, .f32⟩ : BufTy).Contents (Elt F) → (⟨S32x3, .f32⟩ : BufTy).Contents (Elt F)),
    nullary main_cst_3 (constant S_ .f32 0x00000000#32),
    binary main_v5 main_cst_3 main_v9 ((fun x v => Host.reduceAdd x v reducesTo_S32x3x512x512_S32x3_d2_3 h_S_) : (⟨S32x3x512x512, .f32⟩ : BufTy).Contents (Elt F) → (⟨S_, .f32⟩ : BufTy).Contents (Elt F) → (⟨S32x3, .f32⟩ : BufTy).Contents (Elt F)),
    binary main_v8 main_v9 main_v10 (addf : (⟨S32x3, .f32⟩ : BufTy).Contents (Elt F) → (⟨S32x3, .f32⟩ : BufTy).Contents (Elt F) → (⟨S32x3, .f32⟩ : BufTy).Contents (Elt F)),
    binary main_v10 main_v7 main_v11 (subf : (⟨S32x3, .f32⟩ : BufTy).Contents (Elt F) → (⟨S32x3, .f32⟩ : BufTy).Contents (Elt F) → (⟨S32x3, .f32⟩ : BufTy).Contents (Elt F)),
    nullary main_cst_4 (constant S_ .f32 0x00000000#32),
    unary main_cst_4 main_v12 (broadcastInDim S32x3 ![] bcast_S_S32x3 : (⟨S_, .f32⟩ : BufTy).Contents (Elt F) → (⟨S32x3, .f32⟩ : BufTy).Contents (Elt F)),
    binary main_v11 main_v12 main_v13 (cmpf .ogt : (⟨S32x3, .f32⟩ : BufTy).Contents (Elt F) → (⟨S32x3, .f32⟩ : BufTy).Contents (Elt F) → (⟨S32x3, .i1⟩ : BufTy).Contents (Elt F)),
    nullary main_cst_5 (constant S_ .f32 0x00000000#32),
    unary main_cst_5 main_v14 (broadcastInDim S32x3 ![] bcast_S_S32x3 : (⟨S_, .f32⟩ : BufTy).Contents (Elt F) → (⟨S32x3, .f32⟩ : BufTy).Contents (Elt F)),
    binary main_v11 main_v14 main_v15 (cmpf .ogt : (⟨S32x3, .f32⟩ : BufTy).Contents (Elt F) → (⟨S32x3, .f32⟩ : BufTy).Contents (Elt F) → (⟨S32x3, .i1⟩ : BufTy).Contents (Elt F)),
    nullary main_cst_6 (constant S_ .f32 0x3F800000#32),
    TRef.unary (TRef.of (T := ⟨S_, .f32⟩) main_cst_6) (TRef.of (T := ⟨S_, .f32⟩) main_call0_v0) id,
    TRef.unary (TRef.of (T := ⟨S_, .f32⟩) main_call0_v0) (TRef.of (T := ⟨S32x3, .f32⟩) main_call0_v1) (broadcastInDim S32x3 ![] bcast_S_S32x3),
    TRef.ternary (TRef.of (T := ⟨S32x3, .i1⟩) main_v15) (TRef.of (T := ⟨S32x3, .f32⟩) main_v11) (TRef.of (T := ⟨S32x3, .f32⟩) main_call0_v1) (TRef.of (T := ⟨S32x3, .f32⟩) main_v16) select,
    binary main_v7 main_v16 main_v17 (Host.divf : (⟨S32x3, .f32⟩ : BufTy).Contents (Elt F) → (⟨S32x3, .f32⟩ : BufTy).Contents (Elt F) → (⟨S32x3, .f32⟩ : BufTy).Contents (Elt F)),
    nullary main_cst_7 (constant S_ .f32 0x3F800000#32),
    TRef.unary (TRef.of (T := ⟨S_, .f32⟩) main_cst_7) (TRef.of (T := ⟨S_, .f32⟩) main_call1_v0) id,
    TRef.unary (TRef.of (T := ⟨S_, .f32⟩) main_call1_v0) (TRef.of (T := ⟨S32x3, .f32⟩) main_call1_v1) (broadcastInDim S32x3 ![] bcast_S_S32x3),
    TRef.ternary (TRef.of (T := ⟨S32x3, .i1⟩) main_v13) (TRef.of (T := ⟨S32x3, .f32⟩) main_v17) (TRef.of (T := ⟨S32x3, .f32⟩) main_call1_v1) (TRef.of (T := ⟨S32x3, .f32⟩) main_v18) select,
    nullary main_cst_8 (constant S_ .f32 0x00000000#32),
    binary main_v18 main_cst_8 main_v19 ((fun x v => Host.reduceAdd x v reducesTo_S32x3_S_d0_1 h_S_) : (⟨S32x3, .f32⟩ : BufTy).Contents (Elt F) → (⟨S_, .f32⟩ : BufTy).Contents (Elt F) → (⟨S_, .f32⟩ : BufTy).Contents (Elt F)),
    nullary main_cst_9 (constant S_ .f32 0x42C00000#32),
    binary main_v19 main_cst_9 main_v20 (Host.divf : (⟨S_, .f32⟩ : BufTy).Contents (Elt F) → (⟨S_, .f32⟩ : BufTy).Contents (Elt F) → (⟨S_, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., unary_bufs_sub .., binary_bufs_sub .., nullary_bufs_sub .., binary_bufs_sub .., nullary_bufs_sub .., binary_bufs_sub .., nullary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., binary_bufs_sub .., nullary_bufs_sub .., unary_bufs_sub .., unary_bufs_sub .., ternary_bufs_sub .., nullary_bufs_sub .., binary_bufs_sub .., nullary_bufs_sub .., binary_bufs_sub ..⟩

set_option maxHeartbeats 2000000 in
/-- On every device, for any float values, from any memory with zero counters: every weakly fair execution of @main
    terminates with the result at `result` of the two arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20) = result (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v20).trans (by after_results_simp <;> rfl),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.Straight

end
-- ==== Proof.RefCounts.lean ====
/-
  The reference's result is `meanRatio` of the three counts.

  Over the extended reals the reference's thresholded arrays are `[x]` and `[y]` entry by entry, their product is
  `[x] · [y]`, and each of its three sums over the two trailing axes from the zero is the sum over the 512 × 512
  positions of a (batch, channel) pair: the counts `both`, `first`, `second`.  Its closing operations are `meanRatio`.
-/
import proofs.«174937_j25640954757369_2_alg».proof.Proof.ReferenceRun
import proofs.«174937_j25640954757369_2_alg».proof.Proof.CountsLaws

noncomputable section

namespace Cert.ReferenceIdeal.Straight

open Cert.ReferenceIdeal Cert.ReferenceIdeal.Gen Idealize.ShloMosaic Cert.ThresholdCounts

theorem sum_both (x y : FVec Ideal S32x3x512x512 .f32) :
    sumTrailing (F := Ideal) (mulf (F := Ideal) (mask01 (F := Ideal) x) (mask01 (F := Ideal) y)) = both x y :=
  (hostSum_eq_overPositions reducesTo_S32x3x512x512_S32x3_d2_3 h_S_ _).trans rfl

theorem sum_first (x : FVec Ideal S32x3x512x512 .f32) : sumTrailing (F := Ideal) (mask01 (F := Ideal) x) = first x :=
  (hostSum_eq_overPositions reducesTo_S32x3x512x512_S32x3_d2_3 h_S_ _).trans rfl

theorem sum_second (y : FVec Ideal S32x3x512x512 .f32) : sumTrailing (F := Ideal) (mask01 (F := Ideal) y) = second y :=
  (hostSum_eq_overPositions reducesTo_S32x3x512x512_S32x3_d2_3 h_S_ _).trans rfl

/-- The reference's result, over the extended reals, as `meanRatio` of the arguments' counts. -/
theorem result_eq (x y : FVec Ideal S32x3x512x512 .f32) :
    result (F := Ideal) x y
      = meanRatio bcast_S_S32x3 reducesTo_S32x3_S_d0_1 h_S_ (both x y) (first x) (second y) := by
  show meanRatio bcast_S_S32x3 reducesTo_S32x3_S_d0_1 h_S_
      (sumTrailing (F := Ideal) (mulf (F := Ideal) (mask01 (F := Ideal) x) (mask01 (F := Ideal) y)))
      (sumTrailing (F := Ideal) (mask01 (F := Ideal) x)) (sumTrailing (F := Ideal) (mask01 (F := Ideal) y)) = _
  rw [sum_both, sum_first, sum_second]

end Cert.ReferenceIdeal.Straight

end
-- ==== Proof.lean ====
/-
  The certificate: a thresholded intersection-over-union, tiled, against the plain one.

  Both programs take two arrays x, y of shape [32, 3, 512, 512].  Writing [v] for 1 when v ≥ 1/2 and 0 otherwise, they
  take for every batch p and channel q the three counts over the 512 × 512 positions

      both = Σ [x]·[y],   first = Σ [x],   second = Σ [y],

  then union = first + second − both, the quotient both / union where union > 0 and 1 elsewhere, and the mean of that
  over the 96 pairs (p, q).

  The kernel reaches the counts tile by tile: a 4 × 4 grid of points, point 4a + b holding batches 8a … 8a + 7 and rows
  128b … 128b + 127; three [8, 3] accumulators are zeroed on the first row-tile of a batch tile, each point adds its
  tile's counts (the masks' conjunction converted to a float for `both`; rows summed first, then columns), and the
  accumulators are written back after the fourth row-tile.  The reference thresholds, multiplies the two 0/1 arrays, and
  sums each array over the two trailing axes at once.

  Over the extended reals the two agree exactly, with no use of the inputs' finiteness: a one-bit mask widened and read
  signed is the mask read unsigned, and the conjunction of two masks is the product of their 0/1 values; and a sum of
  extended reals may be regrouped and reordered freely (addition is commutative and associative there), so four tiles
  of 128 rows by 512 columns sum to the 512 × 512 positions.  The closing operations are the same function of the three
  count arrays in both programs and are never opened.

  The three frames are the generated ones (the reference's is its run with the result dropped); the idealization
  rewrote nothing, so `preserves` is trivial.
-/
import proofs.«174937_j25640954757369_2_alg».proof.Defs
import proofs.«174937_j25640954757369_2_alg».proof.Proof.Gen.Kernel
import proofs.«174937_j25640954757369_2_alg».proof.Proof.Gen.Kernel.Frame
import proofs.«174937_j25640954757369_2_alg».proof.Proof.Gen.KernelIdeal
import proofs.«174937_j25640954757369_2_alg».proof.Proof.Gen.KernelIdeal.Frame
import proofs.«174937_j25640954757369_2_alg».proof.Proof.Gen.ReferenceIdeal
import proofs.«174937_j25640954757369_2_alg».proof.Proof.Gen.Pre_finite_inputs
import proofs.«174937_j25640954757369_2_alg».proof.Proof.KernelRun
import proofs.«174937_j25640954757369_2_alg».proof.Proof.RefCounts
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Straight.run (F := Ideal) m ρ)

theorem preserves : Cert.preserves_Kernel_KernelIdeal := trivial

/-- Over the extended reals the kernel's result is `meanRatio` of the arguments' three counts, and so is the
    reference's, of arguments that agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Straight.run (F := Ideal) m' ρ')
  rw [(hagree c).1, (hagree c).2]
  exact Cert.ReferenceIdeal.Straight.result_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
